-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x50000 : Shape := ⟨2, ![1024, 50000]⟩
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S1024x50000 : S_.BroadcastsInDim S1024x50000 (![] : Fin 0 → Fin S1024x50000.rank)
  reducesTo_S1024x50000_S_d0_1 : S1024x50000.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S1024x50000 .f32) (main_arg1 : FVec F S50000x256 .f32) (main_arg2 : IVec S2x800000 32) (main_arg3 : FVec F S256x128 .f32) (main_arg4 : FVec F S128 .f32) (main_arg5 : FVec F S128x64 .f32) (main_arg6 : FVec F S64 .f32) : IVec S_ 1 :=
  let main_v0 : FVec F S1024x50000 .f32 := Host.absf main_arg0
  let main_cst : FVec F S_ .f32 := constant S_ .f32 0x7F800000#32
  let main_v1 : FVec F S1024x50000 .f32 := broadcastInDim S1024x50000 ![] bcast_S_S1024x50000 main_cst
  let main_v2 : IVec S1024x50000 1 := cmpf .olt main_v0 main_v1
  let main_c : IVec S_ 1 := constantI S_ 1 1#1
  let main_v3 : IVec S_ 1 := (fun x v => Host.reduce IntOp.andi x v reducesTo_S1024x50000_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S1024x50000 : Shape := ⟨2, ![1024, 50000]⟩
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x256 : Shape := ⟨2, ![2000, 256]⟩
abbrev S2000x128 : Shape := ⟨2, ![2000, 128]⟩
abbrev S850000x128 : Shape := ⟨2, ![850000, 128]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩
abbrev S1024x51200 : Shape := ⟨2, ![1024, 51200]⟩
abbrev S51200x64 : Shape := ⟨2, ![51200, 64]⟩
abbrev S1024x64 : Shape := ⟨2, ![1024, 64]⟩
abbrev S1024x1280 : Shape := ⟨2, ![1024, 1280]⟩
abbrev S1280x64 : Shape := ⟨2, ![1280, 64]⟩

abbrev nBuf : Space → Nat
  | .hbm => 93
  | .vmem => 16
  | .smem => 0
  | _ => 0

abbrev bufTy : (tb : Table) → Fin (tcTables nBuf tb) → BufTy
  | .hbm, ⟨0, _⟩ => ⟨S1024x50000, .f32⟩
  | .hbm, ⟨1, _⟩ => ⟨S50000x256, .f32⟩
  | .hbm, ⟨2, _⟩ => ⟨S2x800000, .i32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S50000x128, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x128, .f32⟩
  | .hbm, ⟨53, _⟩ => ⟨S850000x1, .f32⟩
  | .hbm, ⟨54, _⟩ => ⟨S850000x128, .f32⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S50000x64, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x64, .f32⟩
  | .hbm, ⟨76, _⟩ => ⟨S850000x1, .f32⟩
  | .hbm, ⟨77, _⟩ => ⟨S850000x64, .f32⟩
  | .hbm, ⟨78, _⟩ => ⟨S850000x64, .f32⟩
  | .hbm, ⟨79, _⟩ => ⟨S_, .f32⟩
  | .hbm, ⟨80, _⟩ => ⟨S50000x64, .f32⟩
  | .hbm, ⟨81, _⟩ => ⟨S850000x1, .i32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S50000x64, .f32⟩
  | .hbm, ⟨86, _⟩ => ⟨S_, .i32⟩
  | .hbm, ⟨87, _⟩ => ⟨S_, .f32⟩
  | .hbm, ⟨88, _⟩ => ⟨S1024x51200, .f32⟩
  | .hbm, ⟨89, _⟩ => ⟨S_, .i32⟩
  | .hbm, ⟨90, _⟩ => ⟨S_, .f32⟩
  | .hbm, ⟨91, _⟩ => ⟨S51200x64, .f32⟩
  | .hbm, ⟨92, _⟩ => ⟨S1024x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x64, .f32⟩
  | .local _ .vmem, ⟨8, _⟩ => ⟨S2000x64, .f32⟩
  | .local _ .vmem, ⟨9, _⟩ => ⟨S2000x64, .f32⟩
  | .local _ .vmem, ⟨10, _⟩ => ⟨S1024x1280, .f32⟩
  | .local _ .vmem, ⟨11, _⟩ => ⟨S1024x1280, .f32⟩
  | .local _ .vmem, ⟨12, _⟩ => ⟨S1280x64, .f32⟩
  | .local _ .vmem, ⟨13, _⟩ => ⟨S1280x64, .f32⟩
  | .local _ .vmem, ⟨14, _⟩ => ⟨S1024x64, .f32⟩
  | .local _ .vmem, ⟨15, _⟩ => ⟨S1024x64, .f32⟩
  | _, _ => ⟨S1024x50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call0_cst : Ref sig .tc := ⟨.hbm, 63, rfl⟩
abbrev main_call0_v0 : Ref sig .tc := ⟨.hbm, 64, rfl⟩
abbrev main_v46 : Ref sig .tc := ⟨.hbm, 65, rfl⟩
abbrev main_v47 : Ref sig .tc := ⟨.hbm, 66, rfl⟩
abbrev main_c_8 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_11 : Ref sig .tc := ⟨.hbm, 86, rfl⟩
abbrev main_call1_v0 : Ref sig .tc := ⟨.hbm, 87, rfl⟩
abbrev main_v64 : Ref sig .tc := ⟨.hbm, 88, rfl⟩
abbrev main_c_12 : Ref sig .tc := ⟨.hbm, 89, rfl⟩
abbrev main_call2_v0 : Ref sig .tc := ⟨.hbm, 90, rfl⟩
abbrev main_v65 : Ref sig .tc := ⟨.hbm, 91, rfl⟩
abbrev main_v66 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![40], ![false]⟩

def k2_cond2 (i : grid2.Coords) : BitVec 1 :=
  let arg0 : BitVec 32 := BitVec.ofNat 32 (i 0).val
  let c39_i32 : BitVec 32 := 39#32
  let v15 : BitVec 1 := Scalar.cmpi .eq arg0 c39_i32
  let v16 : BitVec 32 := Scalar.extui v15
  let c0_i32_8 : BitVec 32 := 0#32
  let v17 : BitVec 1 := Scalar.cmpi .ne v16 c0_i32_8
  v17

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x1280 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1280x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  pads_S1024x50000_S1024x51200_000_012000 : S1024x50000.Pads (![0, 0] : Fin 2 → Nat) ![0, 1200] ![0, 0] S1024x51200
  h_S_ : 0 < S_.numel
  pads_S50000x64_S51200x64_012000_000 : S50000x64.Pads (![0, 0] : Fin 2 → Nat) ![1200, 0] ![0, 0] S51200x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  inb_S1280x64_S1280x64_0_0 : ∀ a, (![0, 0] : Fin 2 → Nat) a + S1280x64.size a ≤ S1280x64.size a
  h_S1280x64 : 0 < S1280x64.numel
  shapeCasts_S1280x64_S1280x64 : S1280x64.ShapeCasts S1280x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S1024x1280_S1280x64_S1024x64_1_0_0_1_n_n_wf : DotDims.WF S1024x1280 S1280x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1280.size a ≤ S1024x51200.size a
  hwx2_0 : ∀ i : grid2.Coords, EltTy.bits .f32 = 32 ∨ (Rect.block (s := S1024x51200) S1024x1280.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1280x64.size a ≤ S51200x64.size a
  hwx2_1 : ∀ i : grid2.Coords, EltTy.bits .f32 = 32 ∨ (Rect.block (s := S51200x64) S1280x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S1024x64.size a
  hwx2_2 : ∀ i : grid2.Coords, EltTy.bits .f32 = 32 ∨ (Rect.block (s := S1024x64) S1024x64.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S1024x1280_S1280x64_S1024x64_1_0_0_1_n_n : DotDims S1024x1280 S1280x64 S1024x64 where
  lhsContracting := [1]
  rhsContracting := [0]
  lhsNonContracting := [0]
  rhsNonContracting := [1]
  lhsBatch := []
  rhsBatch := []
  wf := dot_S1024x1280_S1280x64_S1024x64_1_0_0_1_n_n_wf

abbrev win0_0 : Pipeline.Window sig grid0 :=
  Pipeline.Window.ofSpec (Memref.whole main_arg1) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S1024x1280.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S1280x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1024x64.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S1024x50000 : Shape := ⟨2, ![1024, 50000]⟩
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000x128 : Shape := ⟨2, ![50000, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S1024x64 : Shape := ⟨2, ![1024, 64]⟩

abbrev nBuf : Space → Nat
  | .hbm => 119
  | .vmem => 0
  | .smem => 0
  | _ => 0

abbrev bufTy : (tb : Table) → Fin (tcTables nBuf tb) → BufTy
  | .hbm, ⟨0, _⟩ => ⟨S1024x50000, .f32⟩
  | .hbm, ⟨1, _⟩ => ⟨S50000x256, .f32⟩
  | .hbm, ⟨2, _⟩ => ⟨S2x800000, .i32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000x128, .f32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x128, .f32⟩
  | .hbm, ⟨53, _⟩ => ⟨S850000x1, .f32⟩
  | .hbm, ⟨54, _⟩ => ⟨S850000x128, .f32⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S50000x64, .f32⟩
  | .hbm, ⟨67, _⟩ => ⟨S50000, .i32⟩
  | .hbm, ⟨68, _⟩ => ⟨S850000, .i32⟩
  | .hbm, ⟨69, _⟩ => ⟨S850000, .i32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S50000, .f32⟩
  | .hbm, ⟨80, _⟩ => ⟨S_, .i32⟩
  | .hbm, ⟨81, _⟩ => ⟨S850000, .i32⟩
  | .hbm, ⟨82, _⟩ => ⟨S850000, .i1⟩
  | .hbm, ⟨83, _⟩ => ⟨S_, .i32⟩
  | .hbm, ⟨84, _⟩ => ⟨S850000, .i32⟩
  | .hbm, ⟨85, _⟩ => ⟨S850000, .i32⟩
  | .hbm, ⟨86, _⟩ => ⟨S850000, .i32⟩
  | .hbm, ⟨87, _⟩ => ⟨S850000x1, .i32⟩
  | .hbm, ⟨88, _⟩ => ⟨S850000, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000, .f32⟩
  | .hbm, ⟨98, _⟩ => ⟨S850000, .f32⟩
  | .hbm, ⟨99, _⟩ => ⟨S_, .i32⟩
  | .hbm, ⟨100, _⟩ => ⟨S850000, .i32⟩
  | .hbm, ⟨101, _⟩ => ⟨S850000, .i1⟩
  | .hbm, ⟨102, _⟩ => ⟨S_, .i32⟩
  | .hbm, ⟨103, _⟩ => ⟨S850000, .i32⟩
  | .hbm, ⟨104, _⟩ => ⟨S850000, .i32⟩
  | .hbm, ⟨105, _⟩ => ⟨S850000, .i32⟩
  | .hbm, ⟨106, _⟩ => ⟨S850000x1, .i32⟩
  | .hbm, ⟨107, _⟩ => ⟨S850000x64, .f32⟩
  | .hbm, ⟨108, _⟩ => ⟨S850000x1, .f32⟩
  | .hbm, ⟨109, _⟩ => ⟨S850000x64, .f32⟩
  | .hbm, ⟨110, _⟩ => ⟨S850000x64, .f32⟩
  | .hbm, ⟨111, _⟩ => ⟨S_, .f32⟩
  | .hbm, ⟨112, _⟩ => ⟨S50000x64, .f32⟩
  | .hbm, ⟨113, _⟩ => ⟨S850000x1, .i32⟩
  | .hbm, ⟨114, _⟩ => ⟨S50000x64, .f32⟩
  | .hbm, ⟨115, _⟩ => ⟨S1x64, .f32⟩
  | .hbm, ⟨116, _⟩ => ⟨S50000x64, .f32⟩
  | .hbm, ⟨117, _⟩ => ⟨S50000x64, .f32⟩
  | .hbm, ⟨118, _⟩ => ⟨S1024x64, .f32⟩
  | _, _ => ⟨S1024x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call0_cst : Ref sig .tc := ⟨.hbm, 63, rfl⟩
abbrev main_call0_v0 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_11 : Ref sig .tc := ⟨.hbm, 80, rfl⟩
abbrev main_v58 : Ref sig .tc := ⟨.hbm, 81, rfl⟩
abbrev main_v59 : Ref sig .tc := ⟨.hbm, 82, rfl⟩
abbrev main_c_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_13 : Ref sig .tc := ⟨.hbm, 89, rfl⟩
abbrev main_v65 : Ref sig .tc := ⟨.hbm, 90, rfl⟩
abbrev main_v66 : Ref sig .tc := ⟨.hbm, 91, rfl⟩
abbrev main_c_14 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_15 : Ref sig .tc := ⟨.hbm, 99, rfl⟩
abbrev main_v73 : Ref sig .tc := ⟨.hbm, 100, rfl⟩
abbrev main_v74 : Ref sig .tc := ⟨.hbm, 101, rfl⟩
abbrev main_c_16 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_17 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x256_S256x128_S50000x128_1_0_0_1_n_n_wf : DotDims.WF S50000x256 S256x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S1024x50000_S50000x64_S1024x64_1_0_0_1_n_n_wf : DotDims.WF S1024x50000 S50000x64 S1024x64 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S1024x50000_S50000x64_S1024x64_1_0_0_1_n_n : DotDims S1024x50000 S50000x64 S1024x64 where
  lhsContracting := [1]
  rhsContracting := [0]
  lhsNonContracting := [0]
  rhsNonContracting := [1]
  lhsBatch := []
  rhsBatch := []
  wf := dot_S1024x50000_S50000x64_S1024x64_1_0_0_1_n_n_wf

class Facts : Prop extends Facts₀ where

variable [Facts]
-- ==== Proof.Kernel.Region0.lean ====
/-
  Region 0: a row-tiled matrix product. At grid point t the body reads the t-th block of rows of the left
  operand and the whole right operand, and stores their product (into a zero accumulator) over the t-th block
  of rows of the result. Stated at any entry contents V of the core's buffers.
-/
import proofs.«112369_j84318797955093_1_alg».proof.Proof.Gen.Kernel.Launch
import proofs.«112369_j84318797955093_1_alg».proof.Proof.Gen.Kernel.Skeleton
import proofs.«112369_j84318797955093_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block of rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds the whole operand at every point, though it is fetched only once:
    its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S2000x256 := Rect.unit (s := S2000x256) ![0, 0] S2000x256.size inb_S2000x256_S2000x256_0_0
abbrev rw0 : Rect S256x128 := Rect.unit (s := S256x128) ![0, 0] S256x128.size inb_S256x128_S256x128_0_0
abbrev ro0 : Rect S2000x128 := Rect.unit (s := S2000x128) ![0, 0] S2000x128.size inb_S2000x128_S2000x128_0_0

/-- The result window's staging buffer after the body: the one store, of the product of the two loaded blocks. -/
def out0_2 (x0 : Vec F S2000x256 .f32) (x1 : Vec F S256x128 .f32) : Vec F S2000x128 .f32 :=
  View.canon [⟨ro0, k0_pay1 (View.ld x0 rx0) (View.ld x1 rw0)⟩]

/-- The one store covers the whole staging buffer. -/
theorem cover0_2 (p0 : Vec F S2000x128 .f32) (y : S2000x128.Idx) :
    ∃ pc ∈ ([⟨ro0, p0⟩] : List (View.Piece (Elt F) S2000x128 .f32)), y ∈ pc.1.set :=
  View.cover_of_tiled [⟨ro0, p0⟩] S2000x128.size (by rfl) y

set_option maxHeartbeats 1000000 in
/-- The body on whole staging memrefs: the inputs' contents are kept, the result's buffer ends at out0_2. -/
theorem sound_kernel0 (c : Dev nD) (E : Set ℕ) (i : grid0.Coords) (arg1 : Memref sig .tc .vmem S2000x256 .f32) (harg1 : arg1.IsWhole)
    (arg2 : Memref sig .tc .vmem S256x128 .f32) (harg2 : arg2.IsWhole) (arg3 : Memref sig .tc .vmem S2000x128 .f32) (harg3 : arg3.IsWhole)
    (x0 : Vec F S2000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of region 0 on core c: the arrays as the region finds them; after the body each input's
    buffer at its block and the result's at the product of the two blocks; nothing of its own between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Region1.lean ====
/-
  Region 1: a row-tiled matrix product. At grid point t the body reads the t-th block of rows of the left
  operand and the whole right operand, and stores their product (into a zero accumulator) over the t-th block
  of rows of the result. Stated at any entry contents V of the core's buffers.
-/
import proofs.«112369_j84318797955093_1_alg».proof.Proof.Gen.Kernel.Launch
import proofs.«112369_j84318797955093_1_alg».proof.Proof.Gen.Kernel.Skeleton
import proofs.«112369_j84318797955093_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block of rows at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand's staging buffer holds the whole operand at every point, though it is fetched only once:
    its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rx1 : Rect S2000x128 := Rect.unit (s := S2000x128) ![0, 0] S2000x128.size inb_S2000x128_S2000x128_0_0
abbrev rw1 : Rect S128x64 := Rect.unit (s := S128x64) ![0, 0] S128x64.size inb_S128x64_S128x64_0_0
abbrev ro1 : Rect S2000x64 := Rect.unit (s := S2000x64) ![0, 0] S2000x64.size inb_S2000x64_S2000x64_0_0

/-- The result window's staging buffer after the body: the one store, of the product of the two loaded blocks. -/
def out1_2 (x0 : Vec F S2000x128 .f32) (x1 : Vec F S128x64 .f32) : Vec F S2000x64 .f32 :=
  View.canon [⟨ro1, k1_pay1 (View.ld x0 rx1) (View.ld x1 rw1)⟩]

/-- The one store covers the whole staging buffer. -/
theorem cover1_2 (p0 : Vec F S2000x64 .f32) (y : S2000x64.Idx) :
    ∃ pc ∈ ([⟨ro1, p0⟩] : List (View.Piece (Elt F) S2000x64 .f32)), y ∈ pc.1.set :=
  View.cover_of_tiled [⟨ro1, p0⟩] S2000x64.size (by rfl) y

set_option maxHeartbeats 1000000 in
/-- The body on whole staging memrefs: the inputs' contents are kept, the result's buffer ends at out1_2. -/
theorem sound_kernel1 (c : Dev nD) (E : Set ℕ) (i : grid1.Coords) (arg1 : Memref sig .tc .vmem S2000x128 .f32) (harg1 : arg1.IsWhole)
    (arg2 : Memref sig .tc .vmem S128x64 .f32) (harg2 : arg2.IsWhole) (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of region 1 on core c: the arrays as the region finds them; after the body each input's
    buffer at its block and the result's at the product of the two blocks; nothing of its own between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Region2.lean ====
/-
  Region 2: a matrix product accumulated along the contracted axis. Grid point t reads the t-th block of columns
  of the left operand and the t-th block of rows of the right one; a scratch accumulator, zeroed at the first
  point, gains their product at every point; at the last point the accumulator is copied to the result window,
  which is idle (neither stored nor written back) at every other point. Stated at any entry contents V.
-/
import proofs.«112369_j84318797955093_1_alg».proof.Proof.Gen.Kernel.Launch
import proofs.«112369_j84318797955093_1_alg».proof.Proof.Gen.Kernel.Skeleton
import proofs.«112369_j84318797955093_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions of the body, over the grid -/

/-- "This is the first point": the accumulator is zeroed. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 40 = 0 :=
  (by decide +kernel : ∀ t : Fin grid2.N, cond2_0 (grid2.coords t) ↔ t.val % 40 = 0)
/-- "This is the last point": the accumulator is copied out. -/
abbrev cond2_1 (i : grid2.Coords) : Prop := k2_cond2 i = 1#1
theorem hcond2_1 : ∀ t : Fin cfg2.N, cond2_1 (grid2.coords t) ↔ t.val % 40 = 39 :=
  (by decide +kernel : ∀ t : Fin grid2.N, cond2_1 (grid2.coords t) ↔ t.val % 40 = 39)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-! ## The memrefs the body is called with -/

abbrev VO2 : View sig .tc .vmem S1024x64 .f32 := (Memref.whole cc2_stg2_0 : Memref sig .tc .vmem S1024x64 .f32).view
abbrev ms2_0 (t : Fin cfg2.N) : Memref sig .tc .vmem S1024x1280 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1280x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x64 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2 : Memref sig .tc .vmem S1024x64 .f32 := Memref.whole cc2_scratch0
abbrev VS2 : View sig .tc .vmem S1024x64 .f32 := scM2.view

/-- The staging buffers of the other two regions, each whole at some contents: region 2 never touches them. -/
def Oth2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's own resources, apart: the other regions' staging buffers, the accumulator at some contents, the
    generator register. -/
theorem PhiA2_split (c : Dev nD) :
    (Pipeline.ΦA spec2 c : sProp 𝕄) ⊢ iprop(Oth2 c ∗ (∃ d, owns (c : Thread nD τ) scM2 fullShare d) ∗ (∃ r, prngReg c r)) := by
  unfold Pipeline.ΦA Oth2; rw [scopedRest2_eq]; simp only [scM2, owns_whole]
  iintro ⟨⟨A0, A1, A2, A3, A4, A5, A6, A7, A8, A9, HS⟩, Hg⟩
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  isplitl [HS]; · iexact HS
  iexact Hg

theorem PhiA2_join (c : Dev nD) :
    iprop(Oth2 c ∗ (∃ d, owns (c : Thread nD τ) scM2 fullShare d) ∗ (∃ r, prngReg c r)) ⊢ (Pipeline.ΦA spec2 c : sProp 𝕄) := by
  unfold Pipeline.ΦA Oth2; rw [scopedRest2_eq]; simp only [scM2, owns_whole]
  iintro ⟨⟨A0, A1, A2, A3, A4, A5, A6, A7, A8, A9⟩, HS, Hg⟩
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  iexact HS

/-! ## The body's run, case by case -/

set_option maxHeartbeats 2000000 in
/-- FIRST POINT: the accumulator (at anything) is zeroed, then gains the product of the two blocks; the result
    window is not touched. The pieces the accumulator ends with are found by the run. -/
noncomputable def kernelRun2_A (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : cond2_0 i) (hc1 : ¬cond2_1 i)
    (x0 : Vec F S1024x1280 .f32) (x1 : Vec F S1280x64 .f32) :
    { LS : List (View.Piece (Elt F) S1024x64 .f32) //
      ∀ (xo : Vec F S1024x64 .f32) (E : Set ℕ) (K : PUnit → sProp 𝕄),
        iprop(owns (c : Thread nD τ) arg1 fullShare x0 ∗ owns (c : Thread nD τ) arg2 fullShare x1 ∗ owns (c : Thread nD τ) arg3 fullShare xo ∗ (∃ d, owns (c : Thread nD τ) arg4 fullShare d)
            ∗ (iprop(owns (c : Thread nD τ) arg1 fullShare x0 ∗ owns (c : Thread nD τ) arg2 fullShare x1 ∗ owns (c : Thread nD τ) arg3 fullShare xo ∗ (∃ f, arg4.view.loc (c : Thread nD τ) ↦[arg4.view.set]{fullShare} arg4.view.writes (Elt F) f LS)) -∗ K ⟨⟩))
          ⊢ wp frame (wpE (defs₀ (F := F)) Variants.none c none) E (cc2__matmul_acc_kernel i arg1 harg1 arg2 harg2 arg3 harg3 arg4 harg4) K } := by
  refine ⟨?_, fun xo E K => ?run⟩
  case run =>
    simp only [cc2__matmul_acc_kernel_eq_skeleton]; unfold cc2__matmul_acc_kernel_skel
    unfold owns
    iintro ⟨⟨%f0, %hf0, H0⟩, ⟨%f1, %hf1, H1⟩, ⟨%f2, %hf2, H2⟩, ⟨%d3, %f3, -, HS⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

set_option maxHeartbeats 2000000 in
/-- A MIDDLE POINT: the accumulator, at what the point before left, gains the product of the two blocks. -/
noncomputable def kernelRun2_B (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : ¬cond2_0 i) (hc1 : ¬cond2_1 i)
    (x0 : Vec F S1024x1280 .f32) (x1 : Vec F S1280x64 .f32) (xs : Vec F S1024x64 .f32) :
    { LS : List (View.Piece (Elt F) S1024x64 .f32) //
      ∀ (xo : Vec F S1024x64 .f32) (E : Set ℕ) (K : PUnit → sProp 𝕄),
        iprop(owns (c : Thread nD τ) arg1 fullShare x0 ∗ owns (c : Thread nD τ) arg2 fullShare x1 ∗ owns (c : Thread nD τ) arg3 fullShare xo ∗ owns (c : Thread nD τ) arg4 fullShare xs
            ∗ (iprop(owns (c : Thread nD τ) arg1 fullShare x0 ∗ owns (c : Thread nD τ) arg2 fullShare x1 ∗ owns (c : Thread nD τ) arg3 fullShare xo ∗ (∃ f, arg4.view.loc (c : Thread nD τ) ↦[arg4.view.set]{fullShare} arg4.view.writes (Elt F) f LS)) -∗ K ⟨⟩))
          ⊢ wp frame (wpE (defs₀ (F := F)) Variants.none c none) E (cc2__matmul_acc_kernel i arg1 harg1 arg2 harg2 arg3 harg3 arg4 harg4) K } := by
  refine ⟨?_, fun xo E K => ?run⟩
  case run =>
    simp only [cc2__matmul_acc_kernel_eq_skeleton]; unfold cc2__matmul_acc_kernel_skel
    unfold owns
    iintro ⟨⟨%f0, %hf0, H0⟩, ⟨%f1, %hf1, H1⟩, ⟨%f2, %hf2, H2⟩, ⟨%fs, %hfs, HS⟩, Hk⟩
    obtain rfl := harg1.eq_unread hf0; obtain rfl := harg2.eq_unread hf1; obtain rfl := harg3.eq_unread hf2; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

set_option maxHeartbeats 2000000 in
/-- THE LAST POINT: the accumulator gains the last product and is copied to the result window. -/
noncomputable def kernelRun2_C (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : ¬cond2_0 i) (hc1 : cond2_1 i)
    (x0 : Vec F S1024x1280 .f32) (x1 : Vec F S1280x64 .f32) (xs : Vec F S1024x64 .f32) :
    Σ' (LO : List (View.Piece (Elt F) S1024x64 .f32)), { LS : List (View.Piece (Elt F) S1024x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LS)) -∗ K ⟨⟩))
          ⊢ wp frame (wpE (defs₀ (F := F)) Variants.none c none) E (cc2__matmul_acc_kernel i arg1 harg1 arg2 harg2 arg3 harg3 arg4 harg4) K } := by
  refine ⟨?_, ?_, fun E K => ?run⟩
  case run =>
    simp only [cc2__matmul_acc_kernel_eq_skeleton]; unfold cc2__matmul_acc_kernel_skel
    unfold owns
    iintro ⟨⟨%f0, %hf0, H0⟩, ⟨%f1, %hf1, H1⟩, ⟨%d2, %f2, -, H2⟩, ⟨%fs, %hfs, HS⟩, Hk⟩
    obtain rfl := harg1.eq_unread hf0; obtain rfl := harg2.eq_unread hf1; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS

/-! ## What each case leaves -/

theorem scover2_A (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : cond2_0 i) (hc1 : ¬cond2_1 i)
    (x0 : Vec F S1024x1280 .f32) (x1 : Vec F S1280x64 .f32) (y : S1024x64.Idx) :
    ∃ pc ∈ (kernelRun2_A c i arg1 harg1 arg2 harg2 arg3 harg3 arg4 harg4 hc0 hc1 x0 x1).1, y ∈ pc.1.set :=
  View.cover_of_tiledL (kernelRun2_A c i arg1 harg1 arg2 harg2 arg3 harg3 arg4 harg4 hc0 hc1 x0 x1).1 S1024x64.size (by sl_kernel_rfl) y
/-- The accumulator after the first point. -/
def sout2_A (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : cond2_0 i) (hc1 : ¬cond2_1 i)
    (x0 : Vec F S1024x1280 .f32) (x1 : Vec F S1280x64 .f32) : Vec F S1024x64 .f32 :=
  VS2.read (Elt F) (VS2.writes (Elt F) VS2.junk (kernelRun2_A c i arg1 harg1 arg2 harg2 arg3 harg3 arg4 harg4 hc0 hc1 x0 x1).1)

theorem scover2_B (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : ¬cond2_0 i) (hc1 : ¬cond2_1 i)
    (x0 : Vec F S1024x1280 .f32) (x1 : Vec F S1280x64 .f32) (xs : Vec F S1024x64 .f32) (y : S1024x64.Idx) :
    ∃ pc ∈ (kernelRun2_B c i arg1 harg1 arg2 harg2 arg3 harg3 arg4 harg4 hc0 hc1 x0 x1 xs).1, y ∈ pc.1.set :=
  View.cover_of_tiledL (kernelRun2_B c i arg1 harg1 arg2 harg2 arg3 harg3 arg4 harg4 hc0 hc1 x0 x1 xs).1 S1024x64.size (by sl_kernel_rfl) y
/-- The accumulator after a middle point. -/
def sout2_B (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : ¬cond2_0 i) (hc1 : ¬cond2_1 i)
    (x0 : Vec F S1024x1280 .f32) (x1 : Vec F S1280x64 .f32) (xs : Vec F S1024x64 .f32) : Vec F S1024x64 .f32 :=
  VS2.read (Elt F) (VS2.writes (Elt F) VS2.junk (kernelRun2_B c i arg1 harg1 arg2 harg2 arg3 harg3 arg4 harg4 hc0 hc1 x0 x1 xs).1)

theorem scover2_C (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : ¬cond2_0 i) (hc1 : cond2_1 i)
    (x0 : Vec F S1024x1280 .f32) (x1 : Vec F S1280x64 .f32) (xs : Vec F S1024x64 .f32) (y : S1024x64.Idx) :
    ∃ pc ∈ (kernelRun2_C c i arg1 harg1 arg2 harg2 arg3 harg3 arg4 harg4 hc0 hc1 x0 x1 xs).2.1, y ∈ pc.1.set :=
  View.cover_of_tiledL (kernelRun2_C c i arg1 harg1 arg2 harg2 arg3 harg3 arg4 harg4 hc0 hc1 x0 x1 xs).2.1 S1024x64.size (by sl_kernel_rfl) y
/-- The accumulator after the last point. -/
def sout2_C (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : ¬cond2_0 i) (hc1 : cond2_1 i)
    (x0 : Vec F S1024x1280 .f32) (x1 : Vec F S1280x64 .f32) (xs : Vec F S1024x64 .f32) : Vec F S1024x64 .f32 :=
  VS2.read (Elt F) (VS2.writes (Elt F) VS2.junk (kernelRun2_C c i arg1 harg1 arg2 harg2 arg3 harg3 arg4 harg4 hc0 hc1 x0 x1 xs).2.1)
theorem cover2_C (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : ¬cond2_0 i) (hc1 : cond2_1 i)
    (x0 : Vec F S1024x1280 .f32) (x1 : Vec F S1280x64 .f32) (xs : Vec F S1024x64 .f32) (y : S1024x64.Idx) :
    ∃ pc ∈ (kernelRun2_C c i arg1 harg1 arg2 harg2 arg3 harg3 arg4 harg4 hc0 hc1 x0 x1 xs).1, y ∈ pc.1.set :=
  View.cover_of_tiledL (kernelRun2_C c i arg1 harg1 arg2 harg2 arg3 harg3 arg4 harg4 hc0 hc1 x0 x1 xs).1 S1024x64.size (by sl_kernel_rfl) y
/-- The result window's staging buffer after the last point. -/
def out2_C (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : ¬cond2_0 i) (hc1 : cond2_1 i)
    (x0 : Vec F S1024x1280 .f32) (x1 : Vec F S1280x64 .f32) (xs : Vec F S1024x64 .f32) : Vec F S1024x64 .f32 :=
  VO2.read (Elt F) (VO2.writes (Elt F) VO2.junk (kernelRun2_C c i arg1 harg1 arg2 harg2 arg3 harg3 arg4 harg4 hc0 hc1 x0 x1 xs).1)

/-! ## Point by point -/

/-- What the result window's buffer (first component; a placeholder where the window is idle) and the
    accumulator (second) hold after the body at position n. -/
def outsAt2 (c : Dev nD) : (n : ℕ) → n < cfg2.N → Vec F S1024x64 .f32 × Vec F S1024x64 .f32
  | 0, hn =>
    (sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr (Nat.zero_mod _)) (fun h => absurd ((hcond2_1 ⟨0, hn⟩).mp h) (by show ¬ (0 : ℕ) % 40 = 39; decide)) (iblk2 V c 0 ⟨0, hn⟩) (iblk2 V c 1 ⟨0, hn⟩),
     sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr (Nat.zero_mod _)) (fun h => absurd ((hcond2_1 ⟨0, hn⟩).mp h) (by show ¬ (0 : ℕ) % 40 = 39; decide)) (iblk2 V c 0 ⟨0, hn⟩) (iblk2 V c 1 ⟨0, hn⟩))
  | n + 1, hn =>
    if h1 : (n + 1) % 40 = 39 then
      (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => absurd ((hcond2_0 ⟨n + 1, hn⟩).mp h) (by show ¬ (n + 1) % 40 = 0; have hN : n + 1 < 40 := lt_of_lt_of_eq hn (show cfg2.N = 40 from N_2); omega)) ((hcond2_1 ⟨n + 1, hn⟩).mpr h1) (iblk2 V c 0 ⟨n + 1, hn⟩) (iblk2 V c 1 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => absurd ((hcond2_0 ⟨n + 1, hn⟩).mp h) (by show ¬ (n + 1) % 40 = 0; have hN : n + 1 < 40 := lt_of_lt_of_eq hn (show cfg2.N = 40 from N_2); omega)) ((hcond2_1 ⟨n + 1, hn⟩).mpr h1) (iblk2 V c 0 ⟨n + 1, hn⟩) (iblk2 V c 1 ⟨n + 1, hn⟩) (outsAt2 c n (Nat.lt_of_succ_lt hn)).2)
    else
      (sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => absurd ((hcond2_0 ⟨n + 1, hn⟩).mp h) (by show ¬ (n + 1) % 40 = 0; have hN : n + 1 < 40 := lt_of_lt_of_eq hn (show cfg2.N = 40 from N_2); omega)) (fun h => h1 ((hcond2_1 ⟨n + 1, hn⟩).mp h)) (iblk2 V c 0 ⟨n + 1, hn⟩) (iblk2 V c 1 ⟨n + 1, hn⟩) (outsAt2 c n (Nat.lt_of_succ_lt hn)).2,
       sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => absurd ((hcond2_0 ⟨n + 1, hn⟩).mp h) (by show ¬ (n + 1) % 40 = 0; have hN : n + 1 < 40 := lt_of_lt_of_eq hn (show cfg2.N = 40 from N_2); omega)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- At the first point. -/
theorem outsAt2_A (c : Dev nD) (t : Fin cfg2.N) (h0 : t.val % 40 = 0) (h1 : ¬t.val % 40 = 39) :
    outsAt2 V c t.val t.isLt
      = (sout2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t),
         sout2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exfalso; have hN : n + 1 < 40 := lt_of_lt_of_eq hn (show cfg2.N = 40 from N_2); (try dsimp only at h0); omega

/-- At a middle point: over what the point before left. -/
theorem outsAt2_B (c : Dev nD) (t : Fin cfg2.N) (h0 : ¬t.val % 40 = 0) (h1 : ¬t.val % 40 = 39) :
    outsAt2 V c t.val t.isLt
      = (sout2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2,
         sout2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- At the last point: over what the point before left. -/
theorem outsAt2_C (c : Dev nD) (t : Fin cfg2.N) (h0 : ¬t.val % 40 = 0) (h1 : t.val % 40 = 39) :
    outsAt2 V c t.val t.isLt
      = (out2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
         sout2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The region's own resources before position n: at the start whatever the launch hands over; afterwards the
    other regions' staging buffers, the accumulator at what the point before left, the generator register. -/
def PhiS2 (c : Dev nD) : (n : ℕ) → n ≤ cfg2.N → sProp 𝕄
  | 0, _ => Pipeline.ΦA spec2 c
  | n + 1, hn => iprop(Oth2 c ∗ owns (c : Thread nD τ) scM2 fullShare ((outsAt2 V c n hn).2) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(Oth2 c ∗ owns (c : Thread nD τ) scM2 fullShare ((outsAt2 V c n hn).2) ∗ (∃ r, prngReg c r)) := rfl
theorem PhiS2_pos (c : Dev nD) (n : ℕ) (h : n ≤ cfg2.N) (hz : n ≠ 0) :
    PhiS2 V c n h = iprop(Oth2 c ∗ owns (c : Thread nD τ) scM2 fullShare ((outsAt2 V c (n - 1) (by omega)).2) ∗ (∃ r, prngReg c r)) := by
  cases n with
  | zero => exact absurd rfl hz
  | succ n => rfl

/-- The proof data of region 2 on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: which case the point is in is decided by its position; the accumulator is handed over
    at what the point before left (at anything, at the first point) and taken back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 40 := lt_of_lt_of_eq t.isLt (show cfg2.N = 40 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h1 : t.val % 40 = 39
  · have h0 : ¬ t.val % 40 = 0 := by omega
    have hz : t.val ≠ 0 := by omega
    rw [show (dat2 V c).leavesExact 2 t = owns (c : Thread nD τ) (ms2_2 t) fullShare ((dat2 V c).after 2 t) from by
      unfold Dat.leavesExact; rw [liveAt2_2 t ((hcond2_1 t).mpr h1)], after2_2]
    rw [outsAt2_C V c t h0 h1]
    unfold out2_C sout2_C; (try dsimp only)
    rw [PhiS2_castSucc V c t, PhiS2_pos V c _ _ hz]
    iintro ⟨⟨HO, HS, Hg⟩, Ho, ⟨%d0, H0⟩, ⟨%d1, H1⟩, ⟨%d2, H2⟩⟩
    iapply ((kernelRun2_C c (grid2.coords t) _ _ _ _ _ _ _ _ (fun h => h0 ((hcond2_0 t).mp h)) ((hcond2_1 t).mpr h1) (iblk2 V c 0 t) (iblk2 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HO HS Hg]
    · isplitl [HO]; · iexact HO
      isplitl [HS]
      · unfold owns; iexists _; isplitr
        swap; · iexact HS
        ipureintro; exact View.read_writes_of_cover _ _ _ _ _ (scover2_C c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_C c _ _ _ _ _ _ _ _ _ _ _ _ _ _)
  · rw [Dat.leavesExact_idle (dat2 V c) 2 t (idleAt2_2 t (fun h => h1 ((hcond2_1 t).mp h))) (noFlush2_2 t (fun h => h1 ((hcond2_1 t).mp h)))]
    by_cases h0 : t.val % 40 = 0
    · have hz : t.val = 0 := by omega
      rw [outsAt2_A V c t h0 h1]
      unfold sout2_A; (try dsimp only)
      rw [PhiS2_castSucc V c t, PhiS2_zero V c _ _ hz]
      iintro ⟨HΦ, Ho, ⟨%d0, H0⟩, ⟨%d1, H1⟩, ⟨%d2, H2⟩⟩
      ihave HΦ' := (PhiA2_split c) $$ HΦ
      icases HΦ' with ⟨HO, HS, Hg⟩
      iapply ((kernelRun2_A c (grid2.coords t) _ _ _ _ _ _ _ _ ((hcond2_0 t).mpr h0) (fun h => h1 ((hcond2_1 t).mp h)) (iblk2 V c 0 t) (iblk2 V c 1 t)).2 ((dat2 V c).before 2 t d2) Set.univ _)
      isplitl [H0]; · iexact H0
      isplitl [H1]; · iexact H1
      isplitl [H2]; · iexact H2
      isplitl [HS]; · iexact HS
      iintro ⟨H0, H1, H2, ⟨%es, HS⟩⟩
      isplitl [HO HS Hg]
      · isplitl [HO]; · iexact HO
        isplitl [HS]
        · unfold owns; iexists _; isplitr
          swap; · iexact HS
          ipureintro; exact View.read_writes_of_cover _ _ _ _ _ (scover2_A c _ _ _ _ _ _ _ _ _ _ _ _ _)
        iexact Hg
      isplitl [Ho]; · iexact Ho
      isplitl [H0]; · iexact H0
      isplitl [H1]; · iexact H1
      iexists _; iexact H2
    · have hz : t.val ≠ 0 := by omega
      rw [outsAt2_B V c t h0 h1]
      unfold sout2_B; (try dsimp only)
      rw [PhiS2_castSucc V c t, PhiS2_pos V c _ _ hz]
      iintro ⟨⟨HO, HS, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2 ((dat2 V c).before 2 t d2) Set.univ _)
      isplitl [H0]; · iexact H0
      isplitl [H1]; · iexact H1
      isplitl [H2]; · iexact H2
      isplitl [HS]; · iexact HS
      iintro ⟨H0, H1, H2, ⟨%es, HS⟩⟩
      isplitl [HO HS Hg]
      · isplitl [HO]; · iexact HO
        isplitl [HS]
        · unfold owns; iexists _; isplitr
          swap; · iexact HS
          ipureintro; exact View.read_writes_of_cover _ _ _ _ _ (scover2_B c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives it back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 40 := N_2; omega)]
  iintro ⟨HO, HS, Hg⟩
  iapply (PhiA2_join c)
  isplitl [HO]; · iexact HO
  isplitl [HS]; · iexists _; iexact HS
  iexact Hg

end Cert.Kernel.Hand

end
-- ==== Proof.Kernel.Run.lean ====
/-
  The whole run of @main: ten segments — stretches of host operations and the three kernel regions — from the
  launch to the return, with the contents of every unscoped buffer named at each boundary; every weakly fair
  execution terminates without a fault in a state whose unscoped buffers hold the last boundary's contents.
-/
import proofs.«112369_j84318797955093_1_alg».proof.Proof.Kernel.Region0
import proofs.«112369_j84318797955093_1_alg».proof.Proof.Kernel.Region1
import proofs.«112369_j84318797955093_1_alg».proof.Proof.Kernel.Region2
import proofs.«112369_j84318797955093_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg Seg HostSeg)

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A window's input array is left as the region found it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

abbrev W4 : Dev nD → Valuation τ sig (Elt F) := fun c => StableHlo.after hostOps1_1 (W3 m ρ c)
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h

abbrev V4 : (c : Dev nD) → (b : Ref sig .tc) → Buf (Elt F) ((c : Thread nD τ).loc b) := fun c b => W4 m ρ c b
/-- After region 1: its arrays at what the pipeline leaves, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)
/-- A window's input array is left as the region found it. -/
theorem W5_in (c : Dev nD) (w : Fin cfg1.W) (hw : (cfg1.win w).isOut = false) :
    W5 m ρ c (Proc.devRef .tc (Pipeline.arrRef spec1 w)) = W4 m ρ c (Proc.devRef .tc (Pipeline.arrRef spec1 w)) :=
  (W5_arr m ρ c w).trans (((dat1 (V4 m ρ) c).arrAt_in w hw _).trans (A_eq1 (V4 m ρ) c w))

abbrev W6 : Dev nD → Valuation τ sig (Elt F) := fun c => StableHlo.after hostOps2 (W5 m ρ c)
theorem W6_of (c : Dev nD) (r : Ref sig .tc) (h : r ∉ hostOps2_W) : W6 m ρ c (Proc.devRef .tc r) = W5 m ρ c (Proc.devRef .tc r) :=
  StableHlo.after_of_writes_sub hostOps2 _ hostOps2_writes h

abbrev W7 : Dev nD → Valuation τ sig (Elt F) := fun c => StableHlo.after hostOps2_1 (W6 m ρ c)
theorem W7_of (c : Dev nD) (r : Ref sig .tc) (h : r ∉ hostOps2_1_W) : W7 m ρ c (Proc.devRef .tc r) = W6 m ρ c (Proc.devRef .tc r) :=
  StableHlo.after_of_writes_sub hostOps2_1 _ hostOps2_1_writes h

abbrev W8 : Dev nD → Valuation τ sig (Elt F) := fun c => StableHlo.after hostOps2_2 (W7 m ρ c)
theorem W8_of (c : Dev nD) (r : Ref sig .tc) (h : r ∉ hostOps2_2_W) : W8 m ρ c (Proc.devRef .tc r) = W7 m ρ c (Proc.devRef .tc r) :=
  StableHlo.after_of_writes_sub hostOps2_2 _ hostOps2_2_writes h

abbrev W9 : Dev nD → Valuation τ sig (Elt F) := fun c => StableHlo.after hostOps2_3 (W8 m ρ c)
theorem W9_of (c : Dev nD) (r : Ref sig .tc) (h : r ∉ hostOps2_3_W) : W9 m ρ c (Proc.devRef .tc r) = W8 m ρ c (Proc.devRef .tc r) :=
  StableHlo.after_of_writes_sub hostOps2_3 _ hostOps2_3_writes h

abbrev V9 : (c : Dev nD) → (b : Ref sig .tc) → Buf (Elt F) ((c : Thread nD τ).loc b) := fun c b => W9 m ρ c b
/-- After region 2: its arrays at what the pipeline leaves, every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)
/-- A window's input array is left as the region found it. -/
theorem W10_in (c : Dev nD) (w : Fin cfg2.W) (hw : (cfg2.win w).isOut = false) :
    W10 m ρ c (Proc.devRef .tc (Pipeline.arrRef spec2 w)) = W9 m ρ c (Proc.devRef .tc (Pipeline.arrRef spec2 w)) :=
  (W10_arr m ρ c w).trans (((dat2 (V9 m ρ) c).arrAt_in w hw _).trans (A_eq2 (V9 m ρ) c w))

/-! ## No segment changes an argument -/

theorem W10_main_arg0 (c : Dev nD) : W10 m ρ c (Proc.devRef .tc main_arg0) = m ((c : Thread nD τ).loc main_arg0) :=
  (W10_of_ne m ρ c main_arg0 (by decide)).trans <| (W9_of m ρ c main_arg0 (by decide)).trans <| (W8_of m ρ c main_arg0 (by decide)).trans <| (W7_of m ρ c main_arg0 (by decide)).trans <| (W6_of m ρ c main_arg0 (by decide)).trans <| (W5_of_ne m ρ c main_arg0 (by decide)).trans <| (W4_of m ρ c main_arg0 (by decide)).trans <| (W3_of m ρ c main_arg0 (by decide)).trans <| (W2_of_ne m ρ c main_arg0 (by decide)).trans <| (W1_of m ρ c main_arg0 (by decide)).trans <| rfl
theorem W10_main_arg1 (c : Dev nD) : W10 m ρ c (Proc.devRef .tc main_arg1) = m ((c : Thread nD τ).loc main_arg1) :=
  (W10_of_ne m ρ c main_arg1 (by decide)).trans <| (W9_of m ρ c main_arg1 (by decide)).trans <| (W8_of m ρ c main_arg1 (by decide)).trans <| (W7_of m ρ c main_arg1 (by decide)).trans <| (W6_of m ρ c main_arg1 (by decide)).trans <| (W5_of_ne m ρ c main_arg1 (by decide)).trans <| (W4_of m ρ c main_arg1 (by decide)).trans <| (W3_of m ρ c main_arg1 (by decide)).trans <| (W2_in m ρ c 0 rfl).trans <| (W1_of m ρ c main_arg1 (by decide)).trans <| rfl
theorem W10_main_arg2 (c : Dev nD) : W10 m ρ c (Proc.devRef .tc main_arg2) = m ((c : Thread nD τ).loc main_arg2) :=
  (W10_of_ne m ρ c main_arg2 (by decide)).trans <| (W9_of m ρ c main_arg2 (by decide)).trans <| (W8_of m ρ c main_arg2 (by decide)).trans <| (W7_of m ρ c main_arg2 (by decide)).trans <| (W6_of m ρ c main_arg2 (by decide)).trans <| (W5_of_ne m ρ c main_arg2 (by decide)).trans <| (W4_of m ρ c main_arg2 (by decide)).trans <| (W3_of m ρ c main_arg2 (by decide)).trans <| (W2_of_ne m ρ c main_arg2 (by decide)).trans <| (W1_of m ρ c main_arg2 (by decide)).trans <| rfl
theorem W10_main_arg3 (c : Dev nD) : W10 m ρ c (Proc.devRef .tc main_arg3) = m ((c : Thread nD τ).loc main_arg3) :=
  (W10_of_ne m ρ c main_arg3 (by decide)).trans <| (W9_of m ρ c main_arg3 (by decide)).trans <| (W8_of m ρ c main_arg3 (by decide)).trans <| (W7_of m ρ c main_arg3 (by decide)).trans <| (W6_of m ρ c main_arg3 (by decide)).trans <| (W5_of_ne m ρ c main_arg3 (by decide)).trans <| (W4_of m ρ c main_arg3 (by decide)).trans <| (W3_of m ρ c main_arg3 (by decide)).trans <| (W2_in m ρ c 1 rfl).trans <| (W1_of m ρ c main_arg3 (by decide)).trans <| rfl
theorem W10_main_arg4 (c : Dev nD) : W10 m ρ c (Proc.devRef .tc main_arg4) = m ((c : Thread nD τ).loc main_arg4) :=
  (W10_of_ne m ρ c main_arg4 (by decide)).trans <| (W9_of m ρ c main_arg4 (by decide)).trans <| (W8_of m ρ c main_arg4 (by decide)).trans <| (W7_of m ρ c main_arg4 (by decide)).trans <| (W6_of m ρ c main_arg4 (by decide)).trans <| (W5_of_ne m ρ c main_arg4 (by decide)).trans <| (W4_of m ρ c main_arg4 (by decide)).trans <| (W3_of m ρ c main_arg4 (by decide)).trans <| (W2_of_ne m ρ c main_arg4 (by decide)).trans <| (W1_of m ρ c main_arg4 (by decide)).trans <| rfl
theorem W10_main_arg5 (c : Dev nD) : W10 m ρ c (Proc.devRef .tc main_arg5) = m ((c : Thread nD τ).loc main_arg5) :=
  (W10_of_ne m ρ c main_arg5 (by decide)).trans <| (W9_of m ρ c main_arg5 (by decide)).trans <| (W8_of m ρ c main_arg5 (by decide)).trans <| (W7_of m ρ c main_arg5 (by decide)).trans <| (W6_of m ρ c main_arg5 (by decide)).trans <| (W5_in m ρ c 1 rfl).trans <| (W4_of m ρ c main_arg5 (by decide)).trans <| (W3_of m ρ c main_arg5 (by decide)).trans <| (W2_of_ne m ρ c main_arg5 (by decide)).trans <| (W1_of m ρ c main_arg5 (by decide)).trans <| rfl
theorem W10_main_arg6 (c : Dev nD) : W10 m ρ c (Proc.devRef .tc main_arg6) = m ((c : Thread nD τ).loc main_arg6) :=
  (W10_of_ne m ρ c main_arg6 (by decide)).trans <| (W9_of m ρ c main_arg6 (by decide)).trans <| (W8_of m ρ c main_arg6 (by decide)).trans <| (W7_of m ρ c main_arg6 (by decide)).trans <| (W6_of m ρ c main_arg6 (by decide)).trans <| (W5_of_ne m ρ c main_arg6 (by decide)).trans <| (W4_of m ρ c main_arg6 (by decide)).trans <| (W3_of m ρ c main_arg6 (by decide)).trans <| (W2_of_ne m ρ c main_arg6 (by decide)).trans <| (W1_of m ρ c main_arg6 (by decide)).trans <| rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
  | ⟨2, _⟩ => fun c => dat2 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered with every unscoped buffer at its contents before the region, left
    with the region's arrays at what its write-backs leave and every other buffer as entered. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at its contents before the region, left
    with the region's arrays at what its write-backs leave and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at its contents before the region, left
    with the region's arrays at what its write-backs leave and every other buffer as entered. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec2 c : sProp 𝕄) ⊢ (pdats m ρ 2 c).Φ 0 := hin2 (V9 m ρ) c
    iintro H
    iapply h
    unfold Pipeline.ΦA
    icases H with ⟨Hp, -, Hr⟩
    isplitl [Hr]; · iexact Hr
    iexact Hp
  hout c := by
    rw [Pipeline.ownSems0_none]
    have h : (pdats m ρ 2 c).Φ (Fin.last _) ⊢ (Pipeline.ΦA spec2 c : sProp 𝕄) := hout2 (V9 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .region (reg1 m ρ),
    .host (hseg hostOps2 hostOps2_sub hostOps2_fresh (W5 m ρ)),
    .host (hseg hostOps2_1 hostOps2_1_sub hostOps2_1_fresh (W6 m ρ)),
    .host (hseg hostOps2_2 hostOps2_2_sub hostOps2_2_fresh (W7 m ρ)),
    .host (hseg hostOps2_3 hostOps2_3_sub hostOps2_3_fresh (W8 m ρ)),
    .region (reg2 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing
    faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c)⟩) (run_all m ρ)

end Cert.Kernel.Hand

end
-- ==== Proof.KernelIdeal.Region0.lean ====
/-
  Region 0: a row-tiled matrix product. At grid point t the body reads the t-th block of rows of the left
  operand and the whole right operand, and stores their product (into a zero accumulator) over the t-th block
  of rows of the result. Stated at any entry contents V of the core's buffers.
-/
import proofs.«112369_j84318797955093_1_alg».proof.Proof.Gen.KernelIdeal.Launch
import proofs.«112369_j84318797955093_1_alg».proof.Proof.Gen.KernelIdeal.Skeleton
import proofs.«112369_j84318797955093_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block of rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds the whole operand at every point, though it is fetched only once:
    its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S2000x256 := Rect.unit (s := S2000x256) ![0, 0] S2000x256.size inb_S2000x256_S2000x256_0_0
abbrev rw0 : Rect S256x128 := Rect.unit (s := S256x128) ![0, 0] S256x128.size inb_S256x128_S256x128_0_0
abbrev ro0 : Rect S2000x128 := Rect.unit (s := S2000x128) ![0, 0] S2000x128.size inb_S2000x128_S2000x128_0_0

/-- The result window's staging buffer after the body: the one store, of the product of the two loaded blocks. -/
def out0_2 (x0 : Vec F S2000x256 .f32) (x1 : Vec F S256x128 .f32) : Vec F S2000x128 .f32 :=
  View.canon [⟨ro0, k0_pay1 (View.ld x0 rx0) (View.ld x1 rw0)⟩]

/-- The one store covers the whole staging buffer. -/
theorem cover0_2 (p0 : Vec F S2000x128 .f32) (y : S2000x128.Idx) :
    ∃ pc ∈ ([⟨ro0, p0⟩] : List (View.Piece (Elt F) S2000x128 .f32)), y ∈ pc.1.set :=
  View.cover_of_tiled [⟨ro0, p0⟩] S2000x128.size (by rfl) y

set_option maxHeartbeats 1000000 in
/-- The body on whole staging memrefs: the inputs' contents are kept, the result's buffer ends at out0_2. -/
theorem sound_kernel0 (c : Dev nD) (E : Set ℕ) (i : grid0.Coords) (arg1 : Memref sig .tc .vmem S2000x256 .f32) (harg1 : arg1.IsWhole)
    (arg2 : Memref sig .tc .vmem S256x128 .f32) (harg2 : arg2.IsWhole) (arg3 : Memref sig .tc .vmem S2000x128 .f32) (harg3 : arg3.IsWhole)
    (x0 : Vec F S2000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of region 0 on core c: the arrays as the region finds them; after the body each input's
    buffer at its block and the result's at the product of the two blocks; nothing of its own between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Region1.lean ====
/-
  Region 1: a row-tiled matrix product. At grid point t the body reads the t-th block of rows of the left
  operand and the whole right operand, and stores their product (into a zero accumulator) over the t-th block
  of rows of the result. Stated at any entry contents V of the core's buffers.
-/
import proofs.«112369_j84318797955093_1_alg».proof.Proof.Gen.KernelIdeal.Launch
import proofs.«112369_j84318797955093_1_alg».proof.Proof.Gen.KernelIdeal.Skeleton
import proofs.«112369_j84318797955093_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block of rows at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand's staging buffer holds the whole operand at every point, though it is fetched only once:
    its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rx1 : Rect S2000x128 := Rect.unit (s := S2000x128) ![0, 0] S2000x128.size inb_S2000x128_S2000x128_0_0
abbrev rw1 : Rect S128x64 := Rect.unit (s := S128x64) ![0, 0] S128x64.size inb_S128x64_S128x64_0_0
abbrev ro1 : Rect S2000x64 := Rect.unit (s := S2000x64) ![0, 0] S2000x64.size inb_S2000x64_S2000x64_0_0

/-- The result window's staging buffer after the body: the one store, of the product of the two loaded blocks. -/
def out1_2 (x0 : Vec F S2000x128 .f32) (x1 : Vec F S128x64 .f32) : Vec F S2000x64 .f32 :=
  View.canon [⟨ro1, k1_pay1 (View.ld x0 rx1) (View.ld x1 rw1)⟩]

/-- The one store covers the whole staging buffer. -/
theorem cover1_2 (p0 : Vec F S2000x64 .f32) (y : S2000x64.Idx) :
    ∃ pc ∈ ([⟨ro1, p0⟩] : List (View.Piece (Elt F) S2000x64 .f32)), y ∈ pc.1.set :=
  View.cover_of_tiled [⟨ro1, p0⟩] S2000x64.size (by rfl) y

set_option maxHeartbeats 1000000 in
/-- The body on whole staging memrefs: the inputs' contents are kept, the result's buffer ends at out1_2. -/
theorem sound_kernel1 (c : Dev nD) (E : Set ℕ) (i : grid1.Coords) (arg1 : Memref sig .tc .vmem S2000x128 .f32) (harg1 : arg1.IsWhole)
    (arg2 : Memref sig .tc .vmem S128x64 .f32) (harg2 : arg2.IsWhole) (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of region 1 on core c: the arrays as the region finds them; after the body each input's
    buffer at its block and the result's at the product of the two blocks; nothing of its own between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Region2.lean ====
/-
  Region 2: a matrix product accumulated along the contracted axis. Grid point t reads the t-th block of columns
  of the left operand and the t-th block of rows of the right one; a scratch accumulator, zeroed at the first
  point, gains their product at every point; at the last point the accumulator is copied to the result window,
  which is idle (neither stored nor written back) at every other point. Stated at any entry contents V.
-/
import proofs.«112369_j84318797955093_1_alg».proof.Proof.Gen.KernelIdeal.Launch
import proofs.«112369_j84318797955093_1_alg».proof.Proof.Gen.KernelIdeal.Skeleton
import proofs.«112369_j84318797955093_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions of the body, over the grid -/

/-- "This is the first point": the accumulator is zeroed. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 40 = 0 :=
  (by decide +kernel : ∀ t : Fin grid2.N, cond2_0 (grid2.coords t) ↔ t.val % 40 = 0)
/-- "This is the last point": the accumulator is copied out. -/
abbrev cond2_1 (i : grid2.Coords) : Prop := k2_cond2 i = 1#1
theorem hcond2_1 : ∀ t : Fin cfg2.N, cond2_1 (grid2.coords t) ↔ t.val % 40 = 39 :=
  (by decide +kernel : ∀ t : Fin grid2.N, cond2_1 (grid2.coords t) ↔ t.val % 40 = 39)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-! ## The memrefs the body is called with -/

abbrev VO2 : View sig .tc .vmem S1024x64 .f32 := (Memref.whole cc2_stg2_0 : Memref sig .tc .vmem S1024x64 .f32).view
abbrev ms2_0 (t : Fin cfg2.N) : Memref sig .tc .vmem S1024x1280 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1280x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x64 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2 : Memref sig .tc .vmem S1024x64 .f32 := Memref.whole cc2_scratch0
abbrev VS2 : View sig .tc .vmem S1024x64 .f32 := scM2.view

/-- The staging buffers of the other two regions, each whole at some contents: region 2 never touches them. -/
def Oth2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's own resources, apart: the other regions' staging buffers, the accumulator at some contents, the
    generator register. -/
theorem PhiA2_split (c : Dev nD) :
    (Pipeline.ΦA spec2 c : sProp 𝕄) ⊢ iprop(Oth2 c ∗ (∃ d, owns (c : Thread nD τ) scM2 fullShare d) ∗ (∃ r, prngReg c r)) := by
  unfold Pipeline.ΦA Oth2; rw [scopedRest2_eq]; simp only [scM2, owns_whole]
  iintro ⟨⟨A0, A1, A2, A3, A4, A5, A6, A7, A8, A9, HS⟩, Hg⟩
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  isplitl [HS]; · iexact HS
  iexact Hg

theorem PhiA2_join (c : Dev nD) :
    iprop(Oth2 c ∗ (∃ d, owns (c : Thread nD τ) scM2 fullShare d) ∗ (∃ r, prngReg c r)) ⊢ (Pipeline.ΦA spec2 c : sProp 𝕄) := by
  unfold Pipeline.ΦA Oth2; rw [scopedRest2_eq]; simp only [scM2, owns_whole]
  iintro ⟨⟨A0, A1, A2, A3, A4, A5, A6, A7, A8, A9⟩, HS, Hg⟩
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  iexact HS

/-! ## The body's run, case by case -/

set_option maxHeartbeats 2000000 in
/-- FIRST POINT: the accumulator (at anything) is zeroed, then gains the product of the two blocks; the result
    window is not touched. The pieces the accumulator ends with are found by the run. -/
noncomputable def kernelRun2_A (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : cond2_0 i) (hc1 : ¬cond2_1 i)
    (x0 : Vec F S1024x1280 .f32) (x1 : Vec F S1280x64 .f32) :
    { LS : List (View.Piece (Elt F) S1024x64 .f32) //
      ∀ (xo : Vec F S1024x64 .f32) (E : Set ℕ) (K : PUnit → sProp 𝕄),
        iprop(owns (c : Thread nD τ) arg1 fullShare x0 ∗ owns (c : Thread nD τ) arg2 fullShare x1 ∗ owns (c : Thread nD τ) arg3 fullShare xo ∗ (∃ d, owns (c : Thread nD τ) arg4 fullShare d)
            ∗ (iprop(owns (c : Thread nD τ) arg1 fullShare x0 ∗ owns (c : Thread nD τ) arg2 fullShare x1 ∗ owns (c : Thread nD τ) arg3 fullShare xo ∗ (∃ f, arg4.view.loc (c : Thread nD τ) ↦[arg4.view.set]{fullShare} arg4.view.writes (Elt F) f LS)) -∗ K ⟨⟩))
          ⊢ wp frame (wpE (defs₀ (F := F)) Variants.none c none) E (cc2__matmul_acc_kernel i arg1 harg1 arg2 harg2 arg3 harg3 arg4 harg4) K } := by
  refine ⟨?_, fun xo E K => ?run⟩
  case run =>
    simp only [cc2__matmul_acc_kernel_eq_skeleton]; unfold cc2__matmul_acc_kernel_skel
    unfold owns
    iintro ⟨⟨%f0, %hf0, H0⟩, ⟨%f1, %hf1, H1⟩, ⟨%f2, %hf2, H2⟩, ⟨%d3, %f3, -, HS⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

set_option maxHeartbeats 2000000 in
/-- A MIDDLE POINT: the accumulator, at what the point before left, gains the product of the two blocks. -/
noncomputable def kernelRun2_B (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : ¬cond2_0 i) (hc1 : ¬cond2_1 i)
    (x0 : Vec F S1024x1280 .f32) (x1 : Vec F S1280x64 .f32) (xs : Vec F S1024x64 .f32) :
    { LS : List (View.Piece (Elt F) S1024x64 .f32) //
      ∀ (xo : Vec F S1024x64 .f32) (E : Set ℕ) (K : PUnit → sProp 𝕄),
        iprop(owns (c : Thread nD τ) arg1 fullShare x0 ∗ owns (c : Thread nD τ) arg2 fullShare x1 ∗ owns (c : Thread nD τ) arg3 fullShare xo ∗ owns (c : Thread nD τ) arg4 fullShare xs
            ∗ (iprop(owns (c : Thread nD τ) arg1 fullShare x0 ∗ owns (c : Thread nD τ) arg2 fullShare x1 ∗ owns (c : Thread nD τ) arg3 fullShare xo ∗ (∃ f, arg4.view.loc (c : Thread nD τ) ↦[arg4.view.set]{fullShare} arg4.view.writes (Elt F) f LS)) -∗ K ⟨⟩))
          ⊢ wp frame (wpE (defs₀ (F := F)) Variants.none c none) E (cc2__matmul_acc_kernel i arg1 harg1 arg2 harg2 arg3 harg3 arg4 harg4) K } := by
  refine ⟨?_, fun xo E K => ?run⟩
  case run =>
    simp only [cc2__matmul_acc_kernel_eq_skeleton]; unfold cc2__matmul_acc_kernel_skel
    unfold owns
    iintro ⟨⟨%f0, %hf0, H0⟩, ⟨%f1, %hf1, H1⟩, ⟨%f2, %hf2, H2⟩, ⟨%fs, %hfs, HS⟩, Hk⟩
    obtain rfl := harg1.eq_unread hf0; obtain rfl := harg2.eq_unread hf1; obtain rfl := harg3.eq_unread hf2; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

set_option maxHeartbeats 2000000 in
/-- THE LAST POINT: the accumulator gains the last product and is copied to the result window. -/
noncomputable def kernelRun2_C (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : ¬cond2_0 i) (hc1 : cond2_1 i)
    (x0 : Vec F S1024x1280 .f32) (x1 : Vec F S1280x64 .f32) (xs : Vec F S1024x64 .f32) :
    Σ' (LO : List (View.Piece (Elt F) S1024x64 .f32)), { LS : List (View.Piece (Elt F) S1024x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LS)) -∗ K ⟨⟩))
          ⊢ wp frame (wpE (defs₀ (F := F)) Variants.none c none) E (cc2__matmul_acc_kernel i arg1 harg1 arg2 harg2 arg3 harg3 arg4 harg4) K } := by
  refine ⟨?_, ?_, fun E K => ?run⟩
  case run =>
    simp only [cc2__matmul_acc_kernel_eq_skeleton]; unfold cc2__matmul_acc_kernel_skel
    unfold owns
    iintro ⟨⟨%f0, %hf0, H0⟩, ⟨%f1, %hf1, H1⟩, ⟨%d2, %f2, -, H2⟩, ⟨%fs, %hfs, HS⟩, Hk⟩
    obtain rfl := harg1.eq_unread hf0; obtain rfl := harg2.eq_unread hf1; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS

/-! ## What each case leaves -/

theorem scover2_A (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : cond2_0 i) (hc1 : ¬cond2_1 i)
    (x0 : Vec F S1024x1280 .f32) (x1 : Vec F S1280x64 .f32) (y : S1024x64.Idx) :
    ∃ pc ∈ (kernelRun2_A c i arg1 harg1 arg2 harg2 arg3 harg3 arg4 harg4 hc0 hc1 x0 x1).1, y ∈ pc.1.set :=
  View.cover_of_tiledL (kernelRun2_A c i arg1 harg1 arg2 harg2 arg3 harg3 arg4 harg4 hc0 hc1 x0 x1).1 S1024x64.size (by sl_kernel_rfl) y
/-- The accumulator after the first point. -/
def sout2_A (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : cond2_0 i) (hc1 : ¬cond2_1 i)
    (x0 : Vec F S1024x1280 .f32) (x1 : Vec F S1280x64 .f32) : Vec F S1024x64 .f32 :=
  VS2.read (Elt F) (VS2.writes (Elt F) VS2.junk (kernelRun2_A c i arg1 harg1 arg2 harg2 arg3 harg3 arg4 harg4 hc0 hc1 x0 x1).1)

theorem scover2_B (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : ¬cond2_0 i) (hc1 : ¬cond2_1 i)
    (x0 : Vec F S1024x1280 .f32) (x1 : Vec F S1280x64 .f32) (xs : Vec F S1024x64 .f32) (y : S1024x64.Idx) :
    ∃ pc ∈ (kernelRun2_B c i arg1 harg1 arg2 harg2 arg3 harg3 arg4 harg4 hc0 hc1 x0 x1 xs).1, y ∈ pc.1.set :=
  View.cover_of_tiledL (kernelRun2_B c i arg1 harg1 arg2 harg2 arg3 harg3 arg4 harg4 hc0 hc1 x0 x1 xs).1 S1024x64.size (by sl_kernel_rfl) y
/-- The accumulator after a middle point. -/
def sout2_B (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : ¬cond2_0 i) (hc1 : ¬cond2_1 i)
    (x0 : Vec F S1024x1280 .f32) (x1 : Vec F S1280x64 .f32) (xs : Vec F S1024x64 .f32) : Vec F S1024x64 .f32 :=
  VS2.read (Elt F) (VS2.writes (Elt F) VS2.junk (kernelRun2_B c i arg1 harg1 arg2 harg2 arg3 harg3 arg4 harg4 hc0 hc1 x0 x1 xs).1)

theorem scover2_C (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : ¬cond2_0 i) (hc1 : cond2_1 i)
    (x0 : Vec F S1024x1280 .f32) (x1 : Vec F S1280x64 .f32) (xs : Vec F S1024x64 .f32) (y : S1024x64.Idx) :
    ∃ pc ∈ (kernelRun2_C c i arg1 harg1 arg2 harg2 arg3 harg3 arg4 harg4 hc0 hc1 x0 x1 xs).2.1, y ∈ pc.1.set :=
  View.cover_of_tiledL (kernelRun2_C c i arg1 harg1 arg2 harg2 arg3 harg3 arg4 harg4 hc0 hc1 x0 x1 xs).2.1 S1024x64.size (by sl_kernel_rfl) y
/-- The accumulator after the last point. -/
def sout2_C (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : ¬cond2_0 i) (hc1 : cond2_1 i)
    (x0 : Vec F S1024x1280 .f32) (x1 : Vec F S1280x64 .f32) (xs : Vec F S1024x64 .f32) : Vec F S1024x64 .f32 :=
  VS2.read (Elt F) (VS2.writes (Elt F) VS2.junk (kernelRun2_C c i arg1 harg1 arg2 harg2 arg3 harg3 arg4 harg4 hc0 hc1 x0 x1 xs).2.1)
theorem cover2_C (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : ¬cond2_0 i) (hc1 : cond2_1 i)
    (x0 : Vec F S1024x1280 .f32) (x1 : Vec F S1280x64 .f32) (xs : Vec F S1024x64 .f32) (y : S1024x64.Idx) :
    ∃ pc ∈ (kernelRun2_C c i arg1 harg1 arg2 harg2 arg3 harg3 arg4 harg4 hc0 hc1 x0 x1 xs).1, y ∈ pc.1.set :=
  View.cover_of_tiledL (kernelRun2_C c i arg1 harg1 arg2 harg2 arg3 harg3 arg4 harg4 hc0 hc1 x0 x1 xs).1 S1024x64.size (by sl_kernel_rfl) y
/-- The result window's staging buffer after the last point. -/
def out2_C (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : ¬cond2_0 i) (hc1 : cond2_1 i)
    (x0 : Vec F S1024x1280 .f32) (x1 : Vec F S1280x64 .f32) (xs : Vec F S1024x64 .f32) : Vec F S1024x64 .f32 :=
  VO2.read (Elt F) (VO2.writes (Elt F) VO2.junk (kernelRun2_C c i arg1 harg1 arg2 harg2 arg3 harg3 arg4 harg4 hc0 hc1 x0 x1 xs).1)

/-! ## Point by point -/

/-- What the result window's buffer (first component; a placeholder where the window is idle) and the
    accumulator (second) hold after the body at position n. -/
def outsAt2 (c : Dev nD) : (n : ℕ) → n < cfg2.N → Vec F S1024x64 .f32 × Vec F S1024x64 .f32
  | 0, hn =>
    (sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr (Nat.zero_mod _)) (fun h => absurd ((hcond2_1 ⟨0, hn⟩).mp h) (by show ¬ (0 : ℕ) % 40 = 39; decide)) (iblk2 V c 0 ⟨0, hn⟩) (iblk2 V c 1 ⟨0, hn⟩),
     sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr (Nat.zero_mod _)) (fun h => absurd ((hcond2_1 ⟨0, hn⟩).mp h) (by show ¬ (0 : ℕ) % 40 = 39; decide)) (iblk2 V c 0 ⟨0, hn⟩) (iblk2 V c 1 ⟨0, hn⟩))
  | n + 1, hn =>
    if h1 : (n + 1) % 40 = 39 then
      (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => absurd ((hcond2_0 ⟨n + 1, hn⟩).mp h) (by show ¬ (n + 1) % 40 = 0; have hN : n + 1 < 40 := lt_of_lt_of_eq hn (show cfg2.N = 40 from N_2); omega)) ((hcond2_1 ⟨n + 1, hn⟩).mpr h1) (iblk2 V c 0 ⟨n + 1, hn⟩) (iblk2 V c 1 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => absurd ((hcond2_0 ⟨n + 1, hn⟩).mp h) (by show ¬ (n + 1) % 40 = 0; have hN : n + 1 < 40 := lt_of_lt_of_eq hn (show cfg2.N = 40 from N_2); omega)) ((hcond2_1 ⟨n + 1, hn⟩).mpr h1) (iblk2 V c 0 ⟨n + 1, hn⟩) (iblk2 V c 1 ⟨n + 1, hn⟩) (outsAt2 c n (Nat.lt_of_succ_lt hn)).2)
    else
      (sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => absurd ((hcond2_0 ⟨n + 1, hn⟩).mp h) (by show ¬ (n + 1) % 40 = 0; have hN : n + 1 < 40 := lt_of_lt_of_eq hn (show cfg2.N = 40 from N_2); omega)) (fun h => h1 ((hcond2_1 ⟨n + 1, hn⟩).mp h)) (iblk2 V c 0 ⟨n + 1, hn⟩) (iblk2 V c 1 ⟨n + 1, hn⟩) (outsAt2 c n (Nat.lt_of_succ_lt hn)).2,
       sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => absurd ((hcond2_0 ⟨n + 1, hn⟩).mp h) (by show ¬ (n + 1) % 40 = 0; have hN : n + 1 < 40 := lt_of_lt_of_eq hn (show cfg2.N = 40 from N_2); omega)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- At the first point. -/
theorem outsAt2_A (c : Dev nD) (t : Fin cfg2.N) (h0 : t.val % 40 = 0) (h1 : ¬t.val % 40 = 39) :
    outsAt2 V c t.val t.isLt
      = (sout2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t),
         sout2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exfalso; have hN : n + 1 < 40 := lt_of_lt_of_eq hn (show cfg2.N = 40 from N_2); (try dsimp only at h0); omega

/-- At a middle point: over what the point before left. -/
theorem outsAt2_B (c : Dev nD) (t : Fin cfg2.N) (h0 : ¬t.val % 40 = 0) (h1 : ¬t.val % 40 = 39) :
    outsAt2 V c t.val t.isLt
      = (sout2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2,
         sout2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- At the last point: over what the point before left. -/
theorem outsAt2_C (c : Dev nD) (t : Fin cfg2.N) (h0 : ¬t.val % 40 = 0) (h1 : t.val % 40 = 39) :
    outsAt2 V c t.val t.isLt
      = (out2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
         sout2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The region's own resources before position n: at the start whatever the launch hands over; afterwards the
    other regions' staging buffers, the accumulator at what the point before left, the generator register. -/
def PhiS2 (c : Dev nD) : (n : ℕ) → n ≤ cfg2.N → sProp 𝕄
  | 0, _ => Pipeline.ΦA spec2 c
  | n + 1, hn => iprop(Oth2 c ∗ owns (c : Thread nD τ) scM2 fullShare ((outsAt2 V c n hn).2) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(Oth2 c ∗ owns (c : Thread nD τ) scM2 fullShare ((outsAt2 V c n hn).2) ∗ (∃ r, prngReg c r)) := rfl
theorem PhiS2_pos (c : Dev nD) (n : ℕ) (h : n ≤ cfg2.N) (hz : n ≠ 0) :
    PhiS2 V c n h = iprop(Oth2 c ∗ owns (c : Thread nD τ) scM2 fullShare ((outsAt2 V c (n - 1) (by omega)).2) ∗ (∃ r, prngReg c r)) := by
  cases n with
  | zero => exact absurd rfl hz
  | succ n => rfl

/-- The proof data of region 2 on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: which case the point is in is decided by its position; the accumulator is handed over
    at what the point before left (at anything, at the first point) and taken back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 40 := lt_of_lt_of_eq t.isLt (show cfg2.N = 40 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h1 : t.val % 40 = 39
  · have h0 : ¬ t.val % 40 = 0 := by omega
    have hz : t.val ≠ 0 := by omega
    rw [show (dat2 V c).leavesExact 2 t = owns (c : Thread nD τ) (ms2_2 t) fullShare ((dat2 V c).after 2 t) from by
      unfold Dat.leavesExact; rw [liveAt2_2 t ((hcond2_1 t).mpr h1)], after2_2]
    rw [outsAt2_C V c t h0 h1]
    unfold out2_C sout2_C; (try dsimp only)
    rw [PhiS2_castSucc V c t, PhiS2_pos V c _ _ hz]
    iintro ⟨⟨HO, HS, Hg⟩, Ho, ⟨%d0, H0⟩, ⟨%d1, H1⟩, ⟨%d2, H2⟩⟩
    iapply ((kernelRun2_C c (grid2.coords t) _ _ _ _ _ _ _ _ (fun h => h0 ((hcond2_0 t).mp h)) ((hcond2_1 t).mpr h1) (iblk2 V c 0 t) (iblk2 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HO HS Hg]
    · isplitl [HO]; · iexact HO
      isplitl [HS]
      · unfold owns; iexists _; isplitr
        swap; · iexact HS
        ipureintro; exact View.read_writes_of_cover _ _ _ _ _ (scover2_C c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_C c _ _ _ _ _ _ _ _ _ _ _ _ _ _)
  · rw [Dat.leavesExact_idle (dat2 V c) 2 t (idleAt2_2 t (fun h => h1 ((hcond2_1 t).mp h))) (noFlush2_2 t (fun h => h1 ((hcond2_1 t).mp h)))]
    by_cases h0 : t.val % 40 = 0
    · have hz : t.val = 0 := by omega
      rw [outsAt2_A V c t h0 h1]
      unfold sout2_A; (try dsimp only)
      rw [PhiS2_castSucc V c t, PhiS2_zero V c _ _ hz]
      iintro ⟨HΦ, Ho, ⟨%d0, H0⟩, ⟨%d1, H1⟩, ⟨%d2, H2⟩⟩
      ihave HΦ' := (PhiA2_split c) $$ HΦ
      icases HΦ' with ⟨HO, HS, Hg⟩
      iapply ((kernelRun2_A c (grid2.coords t) _ _ _ _ _ _ _ _ ((hcond2_0 t).mpr h0) (fun h => h1 ((hcond2_1 t).mp h)) (iblk2 V c 0 t) (iblk2 V c 1 t)).2 ((dat2 V c).before 2 t d2) Set.univ _)
      isplitl [H0]; · iexact H0
      isplitl [H1]; · iexact H1
      isplitl [H2]; · iexact H2
      isplitl [HS]; · iexact HS
      iintro ⟨H0, H1, H2, ⟨%es, HS⟩⟩
      isplitl [HO HS Hg]
      · isplitl [HO]; · iexact HO
        isplitl [HS]
        · unfold owns; iexists _; isplitr
          swap; · iexact HS
          ipureintro; exact View.read_writes_of_cover _ _ _ _ _ (scover2_A c _ _ _ _ _ _ _ _ _ _ _ _ _)
        iexact Hg
      isplitl [Ho]; · iexact Ho
      isplitl [H0]; · iexact H0
      isplitl [H1]; · iexact H1
      iexists _; iexact H2
    · have hz : t.val ≠ 0 := by omega
      rw [outsAt2_B V c t h0 h1]
      unfold sout2_B; (try dsimp only)
      rw [PhiS2_castSucc V c t, PhiS2_pos V c _ _ hz]
      iintro ⟨⟨HO, HS, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2 ((dat2 V c).before 2 t d2) Set.univ _)
      isplitl [H0]; · iexact H0
      isplitl [H1]; · iexact H1
      isplitl [H2]; · iexact H2
      isplitl [HS]; · iexact HS
      iintro ⟨H0, H1, H2, ⟨%es, HS⟩⟩
      isplitl [HO HS Hg]
      · isplitl [HO]; · iexact HO
        isplitl [HS]
        · unfold owns; iexists _; isplitr
          swap; · iexact HS
          ipureintro; exact View.read_writes_of_cover _ _ _ _ _ (scover2_B c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives it back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 40 := N_2; omega)]
  iintro ⟨HO, HS, Hg⟩
  iapply (PhiA2_join c)
  isplitl [HO]; · iexact HO
  isplitl [HS]; · iexists _; iexact HS
  iexact Hg

end Cert.KernelIdeal.Hand

end
-- ==== Proof.KernelIdeal.Run.lean ====
/-
  The whole run of @main: ten segments — stretches of host operations and the three kernel regions — from the
  launch to the return, with the contents of every unscoped buffer named at each boundary; every weakly fair
  execution terminates without a fault in a state whose unscoped buffers hold the last boundary's contents.
-/
import proofs.«112369_j84318797955093_1_alg».proof.Proof.KernelIdeal.Region0
import proofs.«112369_j84318797955093_1_alg».proof.Proof.KernelIdeal.Region1
import proofs.«112369_j84318797955093_1_alg».proof.Proof.KernelIdeal.Region2
import proofs.«112369_j84318797955093_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg Seg HostSeg)

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A window's input array is left as the region found it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

abbrev W4 : Dev nD → Valuation τ sig (Elt F) := fun c => StableHlo.after hostOps1_1 (W3 m ρ c)
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h

abbrev V4 : (c : Dev nD) → (b : Ref sig .tc) → Buf (Elt F) ((c : Thread nD τ).loc b) := fun c b => W4 m ρ c b
/-- After region 1: its arrays at what the pipeline leaves, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)
/-- A window's input array is left as the region found it. -/
theorem W5_in (c : Dev nD) (w : Fin cfg1.W) (hw : (cfg1.win w).isOut = false) :
    W5 m ρ c (Proc.devRef .tc (Pipeline.arrRef spec1 w)) = W4 m ρ c (Proc.devRef .tc (Pipeline.arrRef spec1 w)) :=
  (W5_arr m ρ c w).trans (((dat1 (V4 m ρ) c).arrAt_in w hw _).trans (A_eq1 (V4 m ρ) c w))

abbrev W6 : Dev nD → Valuation τ sig (Elt F) := fun c => StableHlo.after hostOps2 (W5 m ρ c)
theorem W6_of (c : Dev nD) (r : Ref sig .tc) (h : r ∉ hostOps2_W) : W6 m ρ c (Proc.devRef .tc r) = W5 m ρ c (Proc.devRef .tc r) :=
  StableHlo.after_of_writes_sub hostOps2 _ hostOps2_writes h

abbrev W7 : Dev nD → Valuation τ sig (Elt F) := fun c => StableHlo.after hostOps2_1 (W6 m ρ c)
theorem W7_of (c : Dev nD) (r : Ref sig .tc) (h : r ∉ hostOps2_1_W) : W7 m ρ c (Proc.devRef .tc r) = W6 m ρ c (Proc.devRef .tc r) :=
  StableHlo.after_of_writes_sub hostOps2_1 _ hostOps2_1_writes h

abbrev W8 : Dev nD → Valuation τ sig (Elt F) := fun c => StableHlo.after hostOps2_2 (W7 m ρ c)
theorem W8_of (c : Dev nD) (r : Ref sig .tc) (h : r ∉ hostOps2_2_W) : W8 m ρ c (Proc.devRef .tc r) = W7 m ρ c (Proc.devRef .tc r) :=
  StableHlo.after_of_writes_sub hostOps2_2 _ hostOps2_2_writes h

abbrev W9 : Dev nD → Valuation τ sig (Elt F) := fun c => StableHlo.after hostOps2_3 (W8 m ρ c)
theorem W9_of (c : Dev nD) (r : Ref sig .tc) (h : r ∉ hostOps2_3_W) : W9 m ρ c (Proc.devRef .tc r) = W8 m ρ c (Proc.devRef .tc r) :=
  StableHlo.after_of_writes_sub hostOps2_3 _ hostOps2_3_writes h

abbrev V9 : (c : Dev nD) → (b : Ref sig .tc) → Buf (Elt F) ((c : Thread nD τ).loc b) := fun c b => W9 m ρ c b
/-- After region 2: its arrays at what the pipeline leaves, every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)
/-- A window's input array is left as the region found it. -/
theorem W10_in (c : Dev nD) (w : Fin cfg2.W) (hw : (cfg2.win w).isOut = false) :
    W10 m ρ c (Proc.devRef .tc (Pipeline.arrRef spec2 w)) = W9 m ρ c (Proc.devRef .tc (Pipeline.arrRef spec2 w)) :=
  (W10_arr m ρ c w).trans (((dat2 (V9 m ρ) c).arrAt_in w hw _).trans (A_eq2 (V9 m ρ) c w))

/-! ## No segment changes an argument -/

theorem W10_main_arg0 (c : Dev nD) : W10 m ρ c (Proc.devRef .tc main_arg0) = m ((c : Thread nD τ).loc main_arg0) :=
  (W10_of_ne m ρ c main_arg0 (by decide)).trans <| (W9_of m ρ c main_arg0 (by decide)).trans <| (W8_of m ρ c main_arg0 (by decide)).trans <| (W7_of m ρ c main_arg0 (by decide)).trans <| (W6_of m ρ c main_arg0 (by decide)).trans <| (W5_of_ne m ρ c main_arg0 (by decide)).trans <| (W4_of m ρ c main_arg0 (by decide)).trans <| (W3_of m ρ c main_arg0 (by decide)).trans <| (W2_of_ne m ρ c main_arg0 (by decide)).trans <| (W1_of m ρ c main_arg0 (by decide)).trans <| rfl
theorem W10_main_arg1 (c : Dev nD) : W10 m ρ c (Proc.devRef .tc main_arg1) = m ((c : Thread nD τ).loc main_arg1) :=
  (W10_of_ne m ρ c main_arg1 (by decide)).trans <| (W9_of m ρ c main_arg1 (by decide)).trans <| (W8_of m ρ c main_arg1 (by decide)).trans <| (W7_of m ρ c main_arg1 (by decide)).trans <| (W6_of m ρ c main_arg1 (by decide)).trans <| (W5_of_ne m ρ c main_arg1 (by decide)).trans <| (W4_of m ρ c main_arg1 (by decide)).trans <| (W3_of m ρ c main_arg1 (by decide)).trans <| (W2_in m ρ c 0 rfl).trans <| (W1_of m ρ c main_arg1 (by decide)).trans <| rfl
theorem W10_main_arg2 (c : Dev nD) : W10 m ρ c (Proc.devRef .tc main_arg2) = m ((c : Thread nD τ).loc main_arg2) :=
  (W10_of_ne m ρ c main_arg2 (by decide)).trans <| (W9_of m ρ c main_arg2 (by decide)).trans <| (W8_of m ρ c main_arg2 (by decide)).trans <| (W7_of m ρ c main_arg2 (by decide)).trans <| (W6_of m ρ c main_arg2 (by decide)).trans <| (W5_of_ne m ρ c main_arg2 (by decide)).trans <| (W4_of m ρ c main_arg2 (by decide)).trans <| (W3_of m ρ c main_arg2 (by decide)).trans <| (W2_of_ne m ρ c main_arg2 (by decide)).trans <| (W1_of m ρ c main_arg2 (by decide)).trans <| rfl
theorem W10_main_arg3 (c : Dev nD) : W10 m ρ c (Proc.devRef .tc main_arg3) = m ((c : Thread nD τ).loc main_arg3) :=
  (W10_of_ne m ρ c main_arg3 (by decide)).trans <| (W9_of m ρ c main_arg3 (by decide)).trans <| (W8_of m ρ c main_arg3 (by decide)).trans <| (W7_of m ρ c main_arg3 (by decide)).trans <| (W6_of m ρ c main_arg3 (by decide)).trans <| (W5_of_ne m ρ c main_arg3 (by decide)).trans <| (W4_of m ρ c main_arg3 (by decide)).trans <| (W3_of m ρ c main_arg3 (by decide)).trans <| (W2_in m ρ c 1 rfl).trans <| (W1_of m ρ c main_arg3 (by decide)).trans <| rfl
theorem W10_main_arg4 (c : Dev nD) : W10 m ρ c (Proc.devRef .tc main_arg4) = m ((c : Thread nD τ).loc main_arg4) :=
  (W10_of_ne m ρ c main_arg4 (by decide)).trans <| (W9_of m ρ c main_arg4 (by decide)).trans <| (W8_of m ρ c main_arg4 (by decide)).trans <| (W7_of m ρ c main_arg4 (by decide)).trans <| (W6_of m ρ c main_arg4 (by decide)).trans <| (W5_of_ne m ρ c main_arg4 (by decide)).trans <| (W4_of m ρ c main_arg4 (by decide)).trans <| (W3_of m ρ c main_arg4 (by decide)).trans <| (W2_of_ne m ρ c main_arg4 (by decide)).trans <| (W1_of m ρ c main_arg4 (by decide)).trans <| rfl
theorem W10_main_arg5 (c : Dev nD) : W10 m ρ c (Proc.devRef .tc main_arg5) = m ((c : Thread nD τ).loc main_arg5) :=
  (W10_of_ne m ρ c main_arg5 (by decide)).trans <| (W9_of m ρ c main_arg5 (by decide)).trans <| (W8_of m ρ c main_arg5 (by decide)).trans <| (W7_of m ρ c main_arg5 (by decide)).trans <| (W6_of m ρ c main_arg5 (by decide)).trans <| (W5_in m ρ c 1 rfl).trans <| (W4_of m ρ c main_arg5 (by decide)).trans <| (W3_of m ρ c main_arg5 (by decide)).trans <| (W2_of_ne m ρ c main_arg5 (by decide)).trans <| (W1_of m ρ c main_arg5 (by decide)).trans <| rfl
theorem W10_main_arg6 (c : Dev nD) : W10 m ρ c (Proc.devRef .tc main_arg6) = m ((c : Thread nD τ).loc main_arg6) :=
  (W10_of_ne m ρ c main_arg6 (by decide)).trans <| (W9_of m ρ c main_arg6 (by decide)).trans <| (W8_of m ρ c main_arg6 (by decide)).trans <| (W7_of m ρ c main_arg6 (by decide)).trans <| (W6_of m ρ c main_arg6 (by decide)).trans <| (W5_of_ne m ρ c main_arg6 (by decide)).trans <| (W4_of m ρ c main_arg6 (by decide)).trans <| (W3_of m ρ c main_arg6 (by decide)).trans <| (W2_of_ne m ρ c main_arg6 (by decide)).trans <| (W1_of m ρ c main_arg6 (by decide)).trans <| rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
  | ⟨2, _⟩ => fun c => dat2 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered with every unscoped buffer at its contents before the region, left
    with the region's arrays at what its write-backs leave and every other buffer as entered. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at its contents before the region, left
    with the region's arrays at what its write-backs leave and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at its contents before the region, left
    with the region's arrays at what its write-backs leave and every other buffer as entered. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec2 c : sProp 𝕄) ⊢ (pdats m ρ 2 c).Φ 0 := hin2 (V9 m ρ) c
    iintro H
    iapply h
    unfold Pipeline.ΦA
    icases H with ⟨Hp, -, Hr⟩
    isplitl [Hr]; · iexact Hr
    iexact Hp
  hout c := by
    rw [Pipeline.ownSems0_none]
    have h : (pdats m ρ 2 c).Φ (Fin.last _) ⊢ (Pipeline.ΦA spec2 c : sProp 𝕄) := hout2 (V9 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .region (reg1 m ρ),
    .host (hseg hostOps2 hostOps2_sub hostOps2_fresh (W5 m ρ)),
    .host (hseg hostOps2_1 hostOps2_1_sub hostOps2_1_fresh (W6 m ρ)),
    .host (hseg hostOps2_2 hostOps2_2_sub hostOps2_2_fresh (W7 m ρ)),
    .host (hseg hostOps2_3 hostOps2_3_sub hostOps2_3_fresh (W8 m ρ)),
    .region (reg2 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing
    faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c)⟩) (run_all m ρ)

end Cert.KernelIdeal.Hand

end
-- ==== Proof.KernelIdeal.HostStages.lean ====
/-
  The host operations between the kernel regions, one stretch at a time, read at the buffers the regions and the
  result depend on — each as a function of the contents the stretch starts from. A graph-convolution layer is
  one function of (the projected features, the source and destination index vectors with self-loops, the edge
  normalisation, the bias): gather the rows at the sources, scale by the normalisation, sum into the
  destinations, add the bias. Both programs apply exactly these operations, so the layer is stated once, over the
  reference's operation records, and the kernel's stretches are read as it.
-/
import proofs.«112369_j84318797955093_1_alg».proof.Proof.Gen.KernelIdeal.Launch
import proofs.«112369_j84318797955093_1_alg».proof.Proof.Gen.ReferenceIdeal.Read
import Idealize.ShloMosaic.Lib.StableHlo.Run

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem

variable {F : FTy → Type} [FloatOps F]

/-- The index vector with negative entries wrapped by the number of nodes (jnp's indexing), as a column. -/
def wrapCol (si : (⟨S850000, .i32⟩ : BufTy).Contents (Elt F)) : (⟨S850000x1, .i32⟩ : BufTy).Contents (Elt F) :=
  broadcastInDim S850000x1 ![0] bcast_S850000_S850000x1_0
    (select (cmpi .slt si (broadcastInDim S850000 ![] bcast_S_S850000 (constantI S_ 32 0#32)))
      (addi si (broadcastInDim S850000 ![] bcast_S_S850000 (constantI S_ 32 50000#32))) si)

/-- The first layer's aggregation: rows of p gathered at the sources, scaled by the edge normalisation,
    summed into the destinations, plus the bias. -/
def layer1 (p : (⟨S50000x128, .f32⟩ : BufTy).Contents (Elt F)) (si di : (⟨S850000, .i32⟩ : BufTy).Contents (Elt F)) (nrm : (⟨S850000, .f32⟩ : BufTy).Contents (Elt F)) (b : (⟨S128, .f32⟩ : BufTy).Contents (Elt F)) :
    (⟨S50000x128, .f32⟩ : BufTy).Contents (Elt F) :=
  addf (Host.scatterAdd scatter_S50000x128_S850000x1_S850000x128_1_0_0_1
      (broadcastInDim S50000x128 ![] bcast_S_S50000x128 (constant S_ .f32 0x00000000#32))
      (broadcastInDim S850000x1 ![0] bcast_S850000_S850000x1_0 di)
      (mulf (Host.gather gather_S50000x128_S850000x1_S850000x128_1_0_n_n_0_1_1128 p (wrapCol si))
        (broadcastInDim S850000x128 ![0, 1] bcast_S850000x1_S850000x128_0_1 (broadcastInDim S850000x1 ![0] bcast_S850000_S850000x1_0 nrm))))
    (broadcastInDim S50000x128 ![0, 1] bcast_S1x128_S50000x128_0_1 (broadcastInDim S1x128 ![1] bcast_S128_S1x128_1 b))

/-- The second layer's aggregation, at 64 features. -/
def layer2 (p : (⟨S50000x64, .f32⟩ : BufTy).Contents (Elt F)) (si di : (⟨S850000, .i32⟩ : BufTy).Contents (Elt F)) (nrm : (⟨S850000, .f32⟩ : BufTy).Contents (Elt F)) (b : (⟨S64, .f32⟩ : BufTy).Contents (Elt F)) :
    (⟨S50000x64, .f32⟩ : BufTy).Contents (Elt F) :=
  addf (Host.scatterAdd scatter_S50000x64_S850000x1_S850000x64_1_0_0_1
      (broadcastInDim S50000x64 ![] bcast_S_S50000x64 (constant S_ .f32 0x00000000#32))
      (broadcastInDim S850000x1 ![0] bcast_S850000_S850000x1_0 di)
      (mulf (Host.gather gather_S50000x64_S850000x1_S850000x64_1_0_n_n_0_1_164 p (wrapCol si))
        (broadcastInDim S850000x64 ![0, 1] bcast_S850000x1_S850000x64_0_1 (broadcastInDim S850000x1 ![0] bcast_S850000_S850000x1_0 nrm))))
    (broadcastInDim S50000x64 ![0, 1] bcast_S1x64_S50000x64_0_1 (broadcastInDim S1x64 ![1] bcast_S64_S1x64_1 b))

/-- max(·, 0). -/
def relu (a : (⟨S50000x128, .f32⟩ : BufTy).Contents (Elt F)) : (⟨S50000x128, .f32⟩ : BufTy).Contents (Elt F) :=
  maximumf a (broadcastInDim S50000x128 ![] bcast_S_S50000x128 (constant S_ .f32 0x00000000#32))

/-- The reference's hidden features are the first layer of the projected inputs, clamped at zero. -/
theorem ref_hidden (x1 : (⟨S50000x256, .f32⟩ : BufTy).Contents (Elt F)) (x2 : (⟨S2x800000, .i32⟩ : BufTy).Contents (Elt F)) (x3 : (⟨S256x128, .f32⟩ : BufTy).Contents (Elt F)) (x4 : (⟨S128, .f32⟩ : BufTy).Contents (Elt F)) :
    val_main_v46 (F := F) x1 x2 x3 x4
      = relu (layer1 (val_main_v4 (F := F) x1 x3) (val_main_v6 (F := F) x2) (val_main_v7 (F := F) x2) (val_main_v29 (F := F) x2) x4) := rfl

/-- The reference's right factor of the last product is the second layer of the projected hidden features: the
    index vectors and the normalisation it recomputes are the first layer's. -/
theorem ref_second (x1 : (⟨S50000x256, .f32⟩ : BufTy).Contents (Elt F)) (x2 : (⟨S2x800000, .i32⟩ : BufTy).Contents (Elt F)) (x3 : (⟨S256x128, .f32⟩ : BufTy).Contents (Elt F)) (x4 : (⟨S128, .f32⟩ : BufTy).Contents (Elt F))
    (x5 : (⟨S128x64, .f32⟩ : BufTy).Contents (Elt F)) (x6 : (⟨S64, .f32⟩ : BufTy).Contents (Elt F)) :
    val_main_v88 (F := F) x1 x2 x3 x4 x5 x6
      = layer2 (val_main_v47 (F := F) x1 x2 x3 x4 x5) (val_main_v6 (F := F) x2) (val_main_v7 (F := F) x2) (val_main_v29 (F := F) x2) x6 := rfl

end Cert.ReferenceIdeal.RefValue

namespace Cert.KernelIdeal.Hand

open Cert.KernelIdeal Cert.KernelIdeal.Gen
open Idealize.ShloMosaic Idealize.ShloMosaic.TcCoe Idealize.SL.Sem Idealize.ShloMosaic.StableHlo
open Cert.ReferenceIdeal.RefValue (layer1 layer2 relu)

variable {F : FTy → Type} [FloatOps F]
variable (Y : Valuation τ sig (Elt F))

/-! ## The first stretch: the index vectors and the normalisation, from the edge list -/

theorem stretch0_src : StableHlo.after hostOps0 Y (Proc.devRef .tc main_v5) = Cert.ReferenceIdeal.Read.val_main_v6 (F := F) (Y (Proc.devRef .tc main_arg2)) := by
  after_results; rfl
theorem stretch0_dst : StableHlo.after hostOps0 Y (Proc.devRef .tc main_v6) = Cert.ReferenceIdeal.Read.val_main_v7 (F := F) (Y (Proc.devRef .tc main_arg2)) := by
  after_results; rfl
set_option maxHeartbeats 1600000 in
theorem stretch0_norm : StableHlo.after hostOps0 Y (Proc.devRef .tc main_v28) = Cert.ReferenceIdeal.Read.val_main_v29 (F := F) (Y (Proc.devRef .tc main_arg2)) := by
  after_results; rfl

/-! ## After region 0: the first layer, and the clamp -/

set_option maxHeartbeats 1600000 in
theorem stretch1_agg : StableHlo.after hostOps1 Y (Proc.devRef .tc main_v45)
    = layer1 (F := F) (Y (Proc.devRef .tc main_v29)) (Y (Proc.devRef .tc main_v5)) (Y (Proc.devRef .tc main_v6)) (Y (Proc.devRef .tc main_v28)) (Y (Proc.devRef .tc main_arg4)) := by
  after_results; rfl
theorem stretch1_relu : StableHlo.after hostOps1_1 Y (Proc.devRef .tc main_v46) = relu (F := F) (Y (Proc.devRef .tc main_v45)) := by
  after_results; rfl

/-! ## After region 1: the second layer, and the two paddings -/

set_option maxHeartbeats 1600000 in
theorem stretch2_agg : StableHlo.after hostOps2 Y (Proc.devRef .tc main_v63)
    = layer2 (F := F) (Y (Proc.devRef .tc main_v47)) (Y (Proc.devRef .tc main_v5)) (Y (Proc.devRef .tc main_v6)) (Y (Proc.devRef .tc main_v28)) (Y (Proc.devRef .tc main_arg6)) := by
  after_results; rfl
theorem stretch2_zero : StableHlo.after hostOps2 Y (Proc.devRef .tc main_c_11) = (constantI S_ 32 0#32 : (⟨S_, .i32⟩ : BufTy).Contents (Elt F)) := by
  after_results
theorem stretch2_padL : StableHlo.after hostOps2_1 Y (Proc.devRef .tc main_v64)
    = (pad S1024x51200 ![0, 0] ![0, 1200] ![0, 0] (Y (Proc.devRef .tc main_arg0) : (⟨S1024x50000, .f32⟩ : BufTy).Contents (Elt F)) (sitofp .f32 (Y (Proc.devRef .tc main_c_11) : (⟨S_, .i32⟩ : BufTy).Contents (Elt F))) pads_S1024x50000_S1024x51200_000_012000 h_S_ : (⟨S1024x51200, .f32⟩ : BufTy).Contents (Elt F)) := by
  after_results; rfl
theorem stretch2_zero' : StableHlo.after hostOps2_2 Y (Proc.devRef .tc main_c_12) = (constantI S_ 32 0#32 : (⟨S_, .i32⟩ : BufTy).Contents (Elt F)) := by
  after_results
theorem stretch2_padR : StableHlo.after hostOps2_3 Y (Proc.devRef .tc main_v65)
    = (pad S51200x64 ![0, 0] ![1200, 0] ![0, 0] (Y (Proc.devRef .tc main_v63) : (⟨S50000x64, .f32⟩ : BufTy).Contents (Elt F)) (sitofp .f32 (Y (Proc.devRef .tc main_c_12) : (⟨S_, .i32⟩ : BufTy).Contents (Elt F))) pads_S50000x64_S51200x64_012000_000 h_S_ : (⟨S51200x64, .f32⟩ : BufTy).Contents (Elt F)) := by
  after_results; rfl

end Cert.KernelIdeal.Hand

end
-- ==== Proof.KernelIdeal.Value01.lean ====
/-
  Regions 0 and 1, read. Each is a row-tiled matrix product: at grid point t the body multiplies the t-th block
  of 2000 rows of the left operand by the whole right operand (into a zero accumulator; at the ideal values the
  truncation of the operands to bf16 is the identity and the product of a row and a column is the plain sum over
  the contracted index) and stores the result over the t-th block of rows of the result array. The 25 blocks tile
  the 50000 rows, so the array the region leaves is the product of its two operand arrays — the host's dot_general
  of them, which at the ideal values is the same sum.
-/
import proofs.«112369_j84318797955093_1_alg».proof.Proof.KernelIdeal.Region0
import proofs.«112369_j84318797955093_1_alg».proof.Proof.KernelIdeal.Region1
import proofs.«112369_j84318797955093_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

/-- The zero offsets of a whole-buffer rectangle. -/
theorem zeros2 : (![0, 0] : Fin 2 → Nat) = fun _ => 0 := funext fun a => by fin_cases a <;> rfl

variable (V : (c : Dev nD) → (b : Ref sig .tc) → Buf (Elt Ideal) ((c : Thread nD τ).loc b))

/-! ## Region 0 -/

theorem lhs0_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs0_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs0_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs0_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- One block of region 0's result, entry by entry: the sum over the contracted index of the products of the
    left block's row and the right operand's column. -/
theorem out0_2_apply (x0 : Vec Ideal S2000x256 .f32) (x1 : Vec Ideal S256x128 .f32) (p : Fin 2000) (q : Fin 128) :
    out0_2 (F := Ideal) x0 x1 (ix2 p q) = ∑ k : Fin 256, x0 (ix2 p k) * x1 (ix2 k q) := by
  unfold out0_2
  rw [View.canon_unit_zero zeros2]
  simp only [View.ld_unit_zero (S := S2000x256) zeros2, View.ld_unit_zero (S := S256x128) zeros2]
  unfold k0_pay1
  refine (Ideal.matmul_constant_zero_apply dot_S2000x256_S256x128_S2000x128_1_0_0_1_n_n none _ _ (ix2 p q)).trans ?_
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact lhs0_0 _ _
    | ⟨1, _⟩ => exact (lhs0_1 _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (rhs0_0 _ _).trans hk
    | ⟨1, _⟩ => exact rhs0_1 _ _)
  rw [el, er]
  rfl

/-- The host's product of a 50000×256 array and a 256×128 array, entry by entry: the sum over the contracted
    index. -/
theorem refdot0_apply (X : FVec Ideal S50000x256 .f32) (W : FVec Ideal S256x128 .f32) (i : S50000x128.Idx) :
    Host.dotGeneral (F := Ideal) (φ₁ := .f32) (φ₂ := .f32) Cert.ReferenceIdeal.dot_S50000x256_S256x128_S50000x128_1_0_0_1_n_n none X W i
      = ∑ k : Fin 256, X (Cert.ReferenceIdeal.Read.lidx_main_v4 i k) * W (Cert.ReferenceIdeal.Read.ridx_main_v4 i k) := by
  simp only [Host.dotGeneral]
  rw [Ideal.dotGeneral_apply, ← Equiv.sum_comp (contrEquiv1 Cert.ReferenceIdeal.dot_S50000x256_S256x128_S50000x128_1_0_0_1_n_n 256 rfl rfl).symm]
  refine Finset.sum_congr rfl fun k _ => ?_
  have hk := contrEquiv1_symm_val Cert.ReferenceIdeal.dot_S50000x256_S256x128_S50000x128_1_0_0_1_n_n 256 rfl rfl k
  have el : Cert.ReferenceIdeal.dot_S50000x256_S256x128_S50000x128_1_0_0_1_n_n.lhsIdx i ((contrEquiv1 Cert.ReferenceIdeal.dot_S50000x256_S256x128_S50000x128_1_0_0_1_n_n 256 rfl rfl).symm k) = Cert.ReferenceIdeal.Read.lidx_main_v4 i k := funext fun a => Fin.ext (by
    match a with
    | ⟨0, _⟩ => exact Cert.ReferenceIdeal.Read.lhs_main_v4_0 _ _
    | ⟨1, _⟩ => exact (Cert.ReferenceIdeal.Read.lhs_main_v4_1 _ _).trans hk)
  have er : Cert.ReferenceIdeal.dot_S50000x256_S256x128_S50000x128_1_0_0_1_n_n.rhsIdx i ((contrEquiv1 Cert.ReferenceIdeal.dot_S50000x256_S256x128_S50000x128_1_0_0_1_n_n 256 rfl rfl).symm k) = Cert.ReferenceIdeal.Read.ridx_main_v4 i k := funext fun a => Fin.ext (by
    match a with
    | ⟨0, _⟩ => exact (Cert.ReferenceIdeal.Read.rhs_main_v4_0 _ _).trans hk
    | ⟨1, _⟩ => exact Cert.ReferenceIdeal.Read.rhs_main_v4_1 _ _)
  rw [el, er]

/-- A block of region 0's result is the block of the whole product: if the left block holds rows n·2000 … of the
    left array and the right block is the right array, then entry j of the block's product is entry i of the
    arrays' product, for i at row n·2000 + j's row and at j's column. -/
theorem block0_eq (X : FVec Ideal S50000x256 .f32) (W : FVec Ideal S256x128 .f32)
    (xb : Vec Ideal S2000x256 .f32) (wb : Vec Ideal S256x128 .f32) (n : Nat)
    (hx : ∀ (y : S2000x256.Idx) (z : S50000x256.Idx), (z 0).val = n * 2000 + (y 0).val → (z 1).val = (y 1).val → xb y = X z)
    (hw : ∀ (y z : S256x128.Idx), (z 0).val = (y 0).val → (z 1).val = (y 1).val → wb y = W z)
    (j : S2000x128.Idx) (i : S50000x128.Idx) (h0 : (i 0).val = n * 2000 + (j 0).val) (h1 : (i 1).val = (j 1).val) :
    out0_2 (F := Ideal) xb wb j
      = Host.dotGeneral (F := Ideal) (φ₁ := .f32) (φ₂ := .f32) Cert.ReferenceIdeal.dot_S50000x256_S256x128_S50000x128_1_0_0_1_n_n none X W i := by
  obtain ⟨p, q, rfl⟩ : ∃ (p : Fin 2000) (q : Fin 128), j = ix2 p q := ⟨j 0, j 1, eq_ix2 j⟩
  rw [out0_2_apply]
  refine Eq.trans ?_ (refdot0_apply X W i).symm
  refine Finset.sum_congr rfl fun k _ => ?_
  rw [hx (ix2 p k) (Cert.ReferenceIdeal.Read.lidx_main_v4 i k) h0 rfl,
    hw (ix2 k q) (Cert.ReferenceIdeal.Read.ridx_main_v4 i k) rfl h1]

/-- The index maps of region 0 over its grid: the left operand's block of rows is the result's, the right
    operand's block never moves, and the result's block of rows is one of the 25. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) < 25 :=
  (by decide +kernel : ∀ t : Fin grid0.N, _)

/-- Every block of rows is some point's. -/
theorem idx_onto0 : ∀ q : Fin 25, ∃ t : Fin cfg0.N, win0_2.index t (0 : Fin 2) = q.val ∧ win0_2.index t (1 : Fin 2) = 0 :=
  (by decide +kernel : ∀ q : Fin 25, ∃ t : Fin grid0.N, win0_2.index t (0 : Fin 2) = q.val ∧ win0_2.index t (1 : Fin 2) = 0)

/-- What point t writes back is block t of the product of the two operand arrays as the region finds them. -/
theorem flushed0_eq (c : Dev nD) (t : Fin cfg0.N) :
    (dat0 (F := Ideal) V c).flushed 2 t
      = ((cfg0.win 2).blk t).view.read (Elt Ideal)
          (Host.dotGeneral (F := Ideal) (φ₁ := .f32) (φ₂ := .f32) Cert.ReferenceIdeal.dot_S50000x256_S256x128_S50000x128_1_0_0_1_n_n none (V c main_arg1) (V c main_arg3)) := by
  show (cfg0.win 2).cut (grid0.coords t) ((dat0 (F := Ideal) V c).after 2 t) = _
  rw [after0_2]
  obtain ⟨e0, e1, e2, e3, e4, e5⟩ := idx_facts0 t
  funext j
  refine block0_eq (V c main_arg1) (V c main_arg3) (iblk0 V c 0 t) (iblk0 V c 1 t) (win0_2.index t (0 : Fin 2)) ?_ ?_
    ((cfg0.win 2).xinj (grid0.coords t) j) (((cfg0.win 2).blk t).view.emb j) ?_ ?_
  · intro y z hz0 hz1
    show V c main_arg1 (((cfg0.win 0).blk t).view.emb y) = V c main_arg1 z
    refine congrArg _ (funext fun a => Fin.ext ?_)
    match a with
    | ⟨0, _⟩ => show win0_0.index t (0 : Fin 2) * 2000 + 1 * (y 0).val = (z 0).val; omega
    | ⟨1, _⟩ => show win0_0.index t (1 : Fin 2) * 256 + 1 * (y 1).val = (z 1).val; omega
  · intro y z hz0 hz1
    show V c main_arg3 (((cfg0.win 1).blk t).view.emb y) = V c main_arg3 z
    refine congrArg _ (funext fun a => Fin.ext ?_)
    match a with
    | ⟨0, _⟩ => show win0_1.index t (0 : Fin 2) * 256 + 1 * (y 0).val = (z 0).val; omega
    | ⟨1, _⟩ => show win0_1.index t (1 : Fin 2) * 128 + 1 * (y 1).val = (z 1).val; omega
  · show win0_2.index t (0 : Fin 2) * 2000 + 1 * (j 0).val = win0_2.index t (0 : Fin 2) * 2000 + (j 0).val; omega
  · show win0_2.index t (1 : Fin 2) * 128 + 1 * (j 1).val = (j 1).val; omega

/-- An index of the result array is in point t's block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v29).slice (win0_2.rect t)).set ↔ _
  rw [View.set_slice_whole, Rect.mem_set_unit]
  exact Iff.rfl

/-- Row r of the result lies in the block of rows r / 2000, which some point writes back. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, q0, q1⟩ := idx_onto0 ⟨(i 0).val / 2000, by omega⟩
  have q0' : win0_2.index t (0 : Fin 2) = (i 0).val / 2000 := q0
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- Region 0 leaves in its result array the product of its two operand arrays. -/
theorem final0 (c : Dev nD) : (dat0 (F := Ideal) V c).arrAt 2 cfg0.N
    = Host.dotGeneral (F := Ideal) (φ₁ := .f32) (φ₂ := .f32) Cert.ReferenceIdeal.dot_S50000x256_S256x128_S50000x128_1_0_0_1_n_n none (V c main_arg1) (V c main_arg3) :=
  (dat0 (F := Ideal) V c).arrAt_eq_of_cover 2 _ (fun t _ => flushed0_eq V c t) cover0

/-! ## Region 1 -/

theorem lhs1_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs1_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs1_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs1_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- One block of region 1's result, entry by entry: the sum over the contracted index of the products of the
    left block's row and the right operand's column. -/
theorem out1_2_apply (x0 : Vec Ideal S2000x128 .f32) (x1 : Vec Ideal S128x64 .f32) (p : Fin 2000) (q : Fin 64) :
    out1_2 (F := Ideal) x0 x1 (ix2 p q) = ∑ k : Fin 128, x0 (ix2 p k) * x1 (ix2 k q) := by
  unfold out1_2
  rw [View.canon_unit_zero zeros2]
  simp only [View.ld_unit_zero (S := S2000x128) zeros2, View.ld_unit_zero (S := S128x64) zeros2]
  unfold k1_pay1
  rw [shapeCast_self]
  refine (Ideal.matmul_constant_zero_apply dot_S2000x128_S128x64_S2000x64_1_0_0_1_n_n none _ _ (ix2 p q)).trans ?_
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ => exact lhs1_0 _ _
    | ⟨1, _⟩ => exact (lhs1_1 _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (rhs1_0 _ _).trans hk
    | ⟨1, _⟩ => exact rhs1_1 _ _)
  rw [el, er]
  rfl

/-- The host's product of a 50000×128 array and a 128×64 array, entry by entry: the sum over the contracted
    index. -/
theorem refdot1_apply (X : FVec Ideal S50000x128 .f32) (W : FVec Ideal S128x64 .f32) (i : S50000x64.Idx) :
    Host.dotGeneral (F := Ideal) (φ₁ := .f32) (φ₂ := .f32) Cert.ReferenceIdeal.dot_S50000x128_S128x64_S50000x64_1_0_0_1_n_n none X W i
      = ∑ k : Fin 128, X (Cert.ReferenceIdeal.Read.lidx_main_v47 i k) * W (Cert.ReferenceIdeal.Read.ridx_main_v47 i k) := by
  simp only [Host.dotGeneral]
  rw [Ideal.dotGeneral_apply, ← Equiv.sum_comp (contrEquiv1 Cert.ReferenceIdeal.dot_S50000x128_S128x64_S50000x64_1_0_0_1_n_n 128 rfl rfl).symm]
  refine Finset.sum_congr rfl fun k _ => ?_
  have hk := contrEquiv1_symm_val Cert.ReferenceIdeal.dot_S50000x128_S128x64_S50000x64_1_0_0_1_n_n 128 rfl rfl k
  have el : Cert.ReferenceIdeal.dot_S50000x128_S128x64_S50000x64_1_0_0_1_n_n.lhsIdx i ((contrEquiv1 Cert.ReferenceIdeal.dot_S50000x128_S128x64_S50000x64_1_0_0_1_n_n 128 rfl rfl).symm k) = Cert.ReferenceIdeal.Read.lidx_main_v47 i k := funext fun a => Fin.ext (by
    match a with
    | ⟨0, _⟩ => exact Cert.ReferenceIdeal.Read.lhs_main_v47_0 _ _
    | ⟨1, _⟩ => exact (Cert.ReferenceIdeal.Read.lhs_main_v47_1 _ _).trans hk)
  have er : Cert.ReferenceIdeal.dot_S50000x128_S128x64_S50000x64_1_0_0_1_n_n.rhsIdx i ((contrEquiv1 Cert.ReferenceIdeal.dot_S50000x128_S128x64_S50000x64_1_0_0_1_n_n 128 rfl rfl).symm k) = Cert.ReferenceIdeal.Read.ridx_main_v47 i k := funext fun a => Fin.ext (by
    match a with
    | ⟨0, _⟩ => exact (Cert.ReferenceIdeal.Read.rhs_main_v47_0 _ _).trans hk
    | ⟨1, _⟩ => exact Cert.ReferenceIdeal.Read.rhs_main_v47_1 _ _)
  rw [el, er]

/-- A block of region 1's result is the block of the whole product: if the left block holds rows n·2000 … of the
    left array and the right block is the right array, then entry j of the block's product is entry i of the
    arrays' product, for i at row n·2000 + j's row and at j's column. -/
theorem block1_eq (X : FVec Ideal S50000x128 .f32) (W : FVec Ideal S128x64 .f32)
    (xb : Vec Ideal S2000x128 .f32) (wb : Vec Ideal S128x64 .f32) (n : Nat)
    (hx : ∀ (y : S2000x128.Idx) (z : S50000x128.Idx), (z 0).val = n * 2000 + (y 0).val → (z 1).val = (y 1).val → xb y = X z)
    (hw : ∀ (y z : S128x64.Idx), (z 0).val = (y 0).val → (z 1).val = (y 1).val → wb y = W z)
    (j : S2000x64.Idx) (i : S50000x64.Idx) (h0 : (i 0).val = n * 2000 + (j 0).val) (h1 : (i 1).val = (j 1).val) :
    out1_2 (F := Ideal) xb wb j
      = Host.dotGeneral (F := Ideal) (φ₁ := .f32) (φ₂ := .f32) Cert.ReferenceIdeal.dot_S50000x128_S128x64_S50000x64_1_0_0_1_n_n none X W i := by
  obtain ⟨p, q, rfl⟩ : ∃ (p : Fin 2000) (q : Fin 64), j = ix2 p q := ⟨j 0, j 1, eq_ix2 j⟩
  rw [out1_2_apply]
  refine Eq.trans ?_ (refdot1_apply X W i).symm
  refine Finset.sum_congr rfl fun k _ => ?_
  rw [hx (ix2 p k) (Cert.ReferenceIdeal.Read.lidx_main_v47 i k) h0 rfl,
    hw (ix2 k q) (Cert.ReferenceIdeal.Read.ridx_main_v47 i k) rfl h1]

/-- The index maps of region 1 over its grid: the left operand's block of rows is the result's, the right
    operand's block never moves, and the result's block of rows is one of the 25. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) < 25 :=
  (by decide +kernel : ∀ t : Fin grid1.N, _)

/-- Every block of rows is some point's. -/
theorem idx_onto1 : ∀ q : Fin 25, ∃ t : Fin cfg1.N, win1_2.index t (0 : Fin 2) = q.val ∧ win1_2.index t (1 : Fin 2) = 0 :=
  (by decide +kernel : ∀ q : Fin 25, ∃ t : Fin grid1.N, win1_2.index t (0 : Fin 2) = q.val ∧ win1_2.index t (1 : Fin 2) = 0)

/-- What point t writes back is block t of the product of the two operand arrays as the region finds them. -/
theorem flushed1_eq (c : Dev nD) (t : Fin cfg1.N) :
    (dat1 (F := Ideal) V c).flushed 2 t
      = ((cfg1.win 2).blk t).view.read (Elt Ideal)
          (Host.dotGeneral (F := Ideal) (φ₁ := .f32) (φ₂ := .f32) Cert.ReferenceIdeal.dot_S50000x128_S128x64_S50000x64_1_0_0_1_n_n none (V c main_v46) (V c main_arg5)) := by
  show (cfg1.win 2).cut (grid1.coords t) ((dat1 (F := Ideal) V c).after 2 t) = _
  rw [after1_2]
  obtain ⟨e0, e1, e2, e3, e4, e5⟩ := idx_facts1 t
  funext j
  refine block1_eq (V c main_v46) (V c main_arg5) (iblk1 V c 0 t) (iblk1 V c 1 t) (win1_2.index t (0 : Fin 2)) ?_ ?_
    ((cfg1.win 2).xinj (grid1.coords t) j) (((cfg1.win 2).blk t).view.emb j) ?_ ?_
  · intro y z hz0 hz1
    show V c main_v46 (((cfg1.win 0).blk t).view.emb y) = V c main_v46 z
    refine congrArg _ (funext fun a => Fin.ext ?_)
    match a with
    | ⟨0, _⟩ => show win1_0.index t (0 : Fin 2) * 2000 + 1 * (y 0).val = (z 0).val; omega
    | ⟨1, _⟩ => show win1_0.index t (1 : Fin 2) * 128 + 1 * (y 1).val = (z 1).val; omega
  · intro y z hz0 hz1
    show V c main_arg5 (((cfg1.win 1).blk t).view.emb y) = V c main_arg5 z
    refine congrArg _ (funext fun a => Fin.ext ?_)
    match a with
    | ⟨0, _⟩ => show win1_1.index t (0 : Fin 2) * 128 + 1 * (y 0).val = (z 0).val; omega
    | ⟨1, _⟩ => show win1_1.index t (1 : Fin 2) * 64 + 1 * (y 1).val = (z 1).val; omega
  · show win1_2.index t (0 : Fin 2) * 2000 + 1 * (j 0).val = win1_2.index t (0 : Fin 2) * 2000 + (j 0).val; omega
  · show win1_2.index t (1 : Fin 2) * 64 + 1 * (j 1).val = (j 1).val; omega

/-- An index of the result array is in point t's block iff each coordinate is in the block's range on its axis. -/
theorem mem_blk1 (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v47).slice (win1_2.rect t)).set ↔ _
  rw [View.set_slice_whole, Rect.mem_set_unit]
  exact Iff.rfl

/-- Row r of the result lies in the block of rows r / 2000, which some point writes back. -/
theorem cover1 (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, q0, q1⟩ := idx_onto1 ⟨(i 0).val / 2000, by omega⟩
  have q0' : win1_2.index t (0 : Fin 2) = (i 0).val / 2000 := q0
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- Region 1 leaves in its result array the product of its two operand arrays. -/
theorem final1 (c : Dev nD) : (dat1 (F := Ideal) V c).arrAt 2 cfg1.N
    = Host.dotGeneral (F := Ideal) (φ₁ := .f32) (φ₂ := .f32) Cert.ReferenceIdeal.dot_S50000x128_S128x64_S50000x64_1_0_0_1_n_n none (V c main_v46) (V c main_arg5) :=
  (dat1 (F := Ideal) V c).arrAt_eq_of_cover 2 _ (fun t _ => flushed1_eq V c t) cover1

end Cert.KernelIdeal.Hand

end
-- ==== Proof.KernelIdeal.Reads.lean ====
/-
  The contents of the buffers the kernel regions and the result depend on, at the boundary where each is read,
  as the reference's stages of the launch contents of the arguments: the index vectors and the edge
  normalisation; the first projection (region 0's result, the whole product of the features and the first
  weights); the hidden features; the second projection (region 1's result); the second layer's output; and the
  two zero-padded operands of the last product.
-/
import proofs.«112369_j84318797955093_1_alg».proof.Proof.KernelIdeal.Run
import proofs.«112369_j84318797955093_1_alg».proof.Proof.KernelIdeal.HostStages
import proofs.«112369_j84318797955093_1_alg».proof.Proof.KernelIdeal.Value01

set_option maxRecDepth 16384

noncomputable section

namespace Cert.KernelIdeal.Hand

open Cert.KernelIdeal Cert.KernelIdeal.Gen
open Idealize.ShloMosaic Idealize.ShloMosaic.TcCoe Idealize.SL.Sem
open Cert.ReferenceIdeal.Read (val_main_v4 val_main_v6 val_main_v7 val_main_v29 val_main_v46 val_main_v47 val_main_v88)
open Cert.ReferenceIdeal.RefValue (layer1 layer2 relu ref_hidden ref_second)

variable (m : (ℓ : Loc nD τ sig) → Buf (Elt Ideal) ℓ) (ρ : Dev nD → PrngReg) (c : Dev nD)

/-! ## From the edge list -/

theorem W1_src : W1 m ρ c (Proc.devRef .tc main_v5) = val_main_v6 (F := Ideal) (W0 m ρ c (Proc.devRef .tc main_arg2)) := stretch0_src (W0 m ρ c)
theorem W1_dst : W1 m ρ c (Proc.devRef .tc main_v6) = val_main_v7 (F := Ideal) (W0 m ρ c (Proc.devRef .tc main_arg2)) := stretch0_dst (W0 m ρ c)
theorem W1_norm : W1 m ρ c (Proc.devRef .tc main_v28) = val_main_v29 (F := Ideal) (W0 m ρ c (Proc.devRef .tc main_arg2)) := stretch0_norm (W0 m ρ c)

/-! ## The first layer -/

/-- Region 0 leaves the whole product of the node features and the first weights. -/
theorem W2_proj : W2 m ρ c (Proc.devRef .tc main_v29) = val_main_v4 (F := Ideal) (W0 m ρ c (Proc.devRef .tc main_arg1)) (W0 m ρ c (Proc.devRef .tc main_arg3)) := by
  refine (W2_arr m ρ c 2).trans ((final0 (V1 m ρ) c).trans ?_)
  rw [show V1 m ρ c main_arg1 = (W0 m ρ c (Proc.devRef .tc main_arg1)) from W1_of m ρ c main_arg1 (by decide),
    show V1 m ρ c main_arg3 = (W0 m ρ c (Proc.devRef .tc main_arg3)) from W1_of m ρ c main_arg3 (by decide)]
  rfl

theorem W3_agg : W3 m ρ c (Proc.devRef .tc main_v45)
    = layer1 (F := Ideal) (val_main_v4 (F := Ideal) (W0 m ρ c (Proc.devRef .tc main_arg1)) (W0 m ρ c (Proc.devRef .tc main_arg3))) (val_main_v6 (F := Ideal) (W0 m ρ c (Proc.devRef .tc main_arg2))) (val_main_v7 (F := Ideal) (W0 m ρ c (Proc.devRef .tc main_arg2))) (val_main_v29 (F := Ideal) (W0 m ρ c (Proc.devRef .tc main_arg2))) (W0 m ρ c (Proc.devRef .tc main_arg4)) := by
  refine (stretch1_agg (W2 m ρ c)).trans ?_
  rw [W2_proj, (W2_of_ne m ρ c main_v5 (by decide)), W1_src, (W2_of_ne m ρ c main_v6 (by decide)), W1_dst, (W2_of_ne m ρ c main_v28 (by decide)), W1_norm,
    ((W2_of_ne m ρ c main_arg4 (by decide)).trans <| (W1_of m ρ c main_arg4 (by decide)))]

/-- The hidden features the second projection reads are the reference's. -/
theorem W4_hidden : W4 m ρ c (Proc.devRef .tc main_v46) = val_main_v46 (F := Ideal) (W0 m ρ c (Proc.devRef .tc main_arg1)) (W0 m ρ c (Proc.devRef .tc main_arg2)) (W0 m ρ c (Proc.devRef .tc main_arg3)) (W0 m ρ c (Proc.devRef .tc main_arg4)) := by
  refine (stretch1_relu (W3 m ρ c)).trans ?_
  rw [W3_agg, ← ref_hidden]

/-! ## The second layer -/

/-- Region 1 leaves the whole product of the hidden features and the second weights. -/
theorem W5_proj : W5 m ρ c (Proc.devRef .tc main_v47) = val_main_v47 (F := Ideal) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) := by
  refine (W5_arr m ρ c 2).trans ((final1 (V4 m ρ) c).trans ?_)
  rw [show V4 m ρ c main_v46 = _ from W4_hidden m ρ c,
    show V4 m ρ c main_arg5 = (W0 m ρ c (Proc.devRef .tc main_arg5)) from ((W4_of m ρ c main_arg5 (by decide)).trans <| (W3_of m ρ c main_arg5 (by decide)).trans <| (W2_of_ne m ρ c main_arg5 (by decide)).trans <| (W1_of m ρ c main_arg5 (by decide)))]
  rfl

/-- The right factor of the last product, before padding, is the reference's. -/
theorem W6_agg : W6 m ρ c (Proc.devRef .tc main_v63) = val_main_v88 (F := Ideal) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) := by
  refine (stretch2_agg (W5 m ρ c)).trans ?_
  rw [W5_proj, ((W5_of_ne m ρ c main_v5 (by decide)).trans <| (W4_of m ρ c main_v5 (by decide)).trans <| (W3_of m ρ c main_v5 (by decide)).trans <| (W2_of_ne m ρ c main_v5 (by decide))), W1_src, ((W5_of_ne m ρ c main_v6 (by decide)).trans <| (W4_of m ρ c main_v6 (by decide)).trans <| (W3_of m ρ c main_v6 (by decide)).trans <| (W2_of_ne m ρ c main_v6 (by decide))), W1_dst, ((W5_of_ne m ρ c main_v28 (by decide)).trans <| (W4_of m ρ c main_v28 (by decide)).trans <| (W3_of m ρ c main_v28 (by decide)).trans <| (W2_of_ne m ρ c main_v28 (by decide))), W1_norm,
    ((W5_of_ne m ρ c main_arg6 (by decide)).trans <| (W4_of m ρ c main_arg6 (by decide)).trans <| (W3_of m ρ c main_arg6 (by decide)).trans <| (W2_of_ne m ρ c main_arg6 (by decide)).trans <| (W1_of m ρ c main_arg6 (by decide))), ← ref_second]

/-! ## The padded operands of the last product -/

theorem W9_padL : W9 m ρ c (Proc.devRef .tc main_v64)
    = (pad S1024x51200 ![0, 0] ![0, 1200] ![0, 0] ((W0 m ρ c (Proc.devRef .tc main_arg0)) : (⟨S1024x50000, .f32⟩ : BufTy).Contents (Elt Ideal)) (sitofp (F := Ideal) .f32 (constantI S_ 32 0#32 : (⟨S_, .i32⟩ : BufTy).Contents (Elt Ideal))) pads_S1024x50000_S1024x51200_000_012000 h_S_ : (⟨S1024x51200, .f32⟩ : BufTy).Contents (Elt Ideal)) := by
  refine ((W9_of m ρ c main_v64 (by decide)).trans <| (W8_of m ρ c main_v64 (by decide))).trans ((stretch2_padL (W6 m ρ c)).trans ?_)
  rw [((W6_of m ρ c main_arg0 (by decide)).trans <| (W5_of_ne m ρ c main_arg0 (by decide)).trans <| (W4_of m ρ c main_arg0 (by decide)).trans <| (W3_of m ρ c main_arg0 (by decide)).trans <| (W2_of_ne m ρ c main_arg0 (by decide)).trans <| (W1_of m ρ c main_arg0 (by decide))), show W6 m ρ c (Proc.devRef .tc main_c_11) = _ from stretch2_zero (W5 m ρ c)]

theorem W9_padR : W9 m ρ c (Proc.devRef .tc main_v65)
    = (pad S51200x64 ![0, 0] ![1200, 0] ![0, 0] (val_main_v88 (F := Ideal) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) : (⟨S50000x64, .f32⟩ : BufTy).Contents (Elt Ideal)) (sitofp (F := Ideal) .f32 (constantI S_ 32 0#32 : (⟨S_, .i32⟩ : BufTy).Contents (Elt Ideal))) pads_S50000x64_S51200x64_012000_000 h_S_ : (⟨S51200x64, .f32⟩ : BufTy).Contents (Elt Ideal)) := by
  refine (stretch2_padR (W8 m ρ c)).trans ?_
  rw [((W8_of m ρ c main_v63 (by decide)).trans <| (W7_of m ρ c main_v63 (by decide))), W6_agg, show W8 m ρ c (Proc.devRef .tc main_c_12) = _ from stretch2_zero' (W7 m ρ c)]

end Cert.KernelIdeal.Hand

end
-- ==== Proof.KernelIdeal.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.KernelIdeal.LibBlockSum.lean ====
/-
  A sum over `a * b` consecutive indices, cut into `a` consecutive blocks of `b` indices each: the whole sum is the
  sum over the blocks of the sums inside each block. Only commutativity and associativity of `+` are used, so the
  law holds in every commutative additive monoid — in particular on the extended reals, where no finiteness is needed.
-/
import Mathlib.Algebra.BigOperators.Fin
import Mathlib.Logic.Equiv.Fin.Basic

namespace Cert.BlockSum

open Finset

/-- Position `j` of block `k` is an index below `a * b`. -/
theorem block_lt {a b : ℕ} (k : Fin a) (j : Fin b) : k.val * b + j.val < a * b :=
  Nat.lt_of_lt_of_le (Nat.add_lt_add_left j.isLt _) (by rw [← Nat.succ_mul]; exact Nat.mul_le_mul_right _ k.isLt)

/-- The sum of `g` over the `a * b` indices, read block by block: block `k` holds the indices `k * b + j`, `j < b`. -/
theorem sum_blocks {M : Type*} [AddCommMonoid M] (a b : ℕ) (g : Fin (a * b) → M) :
    ∑ i : Fin (a * b), g i = ∑ k : Fin a, ∑ j : Fin b, g ⟨k.val * b + j.val, block_lt k j⟩ := by
  rw [← finProdFinEquiv.sum_comp, Fintype.sum_prod_type]
  refine Finset.sum_congr rfl fun k _ => Finset.sum_congr rfl fun j _ => congrArg g (Fin.ext ?_)
  show j.val + b * k.val = k.val * b + j.val
  rw [Nat.mul_comm, Nat.add_comm]

/-- The same over `n` indices when `n` is the product `a * b`. -/
theorem sum_blocks_of_eq {M : Type*} [AddCommMonoid M] (a b n : ℕ) (hn : a * b = n) (g : Fin n → M) :
    ∑ i : Fin n, g i = ∑ k : Fin a, ∑ j : Fin b, g ⟨k.val * b + j.val, hn ▸ block_lt k j⟩ := by
  subst hn
  exact sum_blocks a b g

end Cert.BlockSum
-- ==== Proof.KernelIdeal.Value2.lean ====
/-
  The value of region 2: the result array, entry (p, q), is the sum over all 51200 contraction coordinates K of the
  left operand at (p, K) times the right operand at (K, q). Grid point t loads columns 1280·t … 1280·t + 1279 of the
  left operand and the same rows of the right one; the accumulator, zeroed at the first point, gains at every point
  the sum over that block's 1280 coordinates, so after point n it holds the sum over the first n + 1 blocks; the
  result window's one block is the whole array, written back at the last point only, when its buffer holds a copy
  of the accumulator; and a sum over 40 consecutive blocks of 1280 terms is the sum over all 51200 terms, the
  extended reals being a commutative additive monoid (no finiteness is used). Stated at any entry contents V.
-/
import proofs.«112369_j84318797955093_1_alg».proof.Proof.KernelIdeal.Region2
import proofs.«112369_j84318797955093_1_alg».proof.Proof.KernelIdeal.LibPlainMatmul
import proofs.«112369_j84318797955093_1_alg».proof.Proof.KernelIdeal.LibBlockSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx
open scoped BigOperators

section Pieces

variable {F : FTy → Type} [FloatOps F]

theorem hz2 : (![0, 0] : Fin 2 → Nat) = fun _ => 0 := funext fun a => by fin_cases a <;> rfl

/-! ## What each control case leaves, as the body's arithmetic of the blocks it loaded -/

/-- At the first point the accumulator, zeroed and read back, gains the product of the two blocks. -/
theorem sout2_A_eq (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : cond2_0 i) (hc1 : ¬cond2_1 i)
    (x0 : Vec F S1024x1280 .f32) (x1 : Vec F S1280x64 .f32) :
    sout2_A c i arg1 harg1 arg2 harg2 arg3 harg3 arg4 harg4 hc0 hc1 x0 x1 = k2_pay2 x0 x1 k2_pay1 := by
  unfold sout2_A
  rw [View.read_writes_eq_canon _ _ _ (scover2_A c i arg1 harg1 arg2 harg2 arg3 harg3 arg4 harg4 hc0 hc1 x0 x1)]
  unfold kernelRun2_A
  dsimp only
  sl_unfold_words
  rw [View.canon_cons_unit_zero (S := S1024x64) hz2, View.readCov_unit_zero (S := S1024x64) _ hz2]
  simp only [View.readAt_eq_ld, harg1.read_unread, harg2.read_unread, View.ld_unit_zero (S := S1024x1280) hz2, View.ld_unit_zero (S := S1280x64) hz2]

/-- At a middle point the accumulator gains the product of the two blocks. -/
theorem sout2_B_eq (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : ¬cond2_0 i) (hc1 : ¬cond2_1 i)
    (x0 : Vec F S1024x1280 .f32) (x1 : Vec F S1280x64 .f32) (xs : Vec F S1024x64 .f32) :
    sout2_B c i arg1 harg1 arg2 harg2 arg3 harg3 arg4 harg4 hc0 hc1 x0 x1 xs = k2_pay2 x0 x1 xs := by
  unfold sout2_B
  rw [View.read_writes_eq_canon _ _ _ (scover2_B c i arg1 harg1 arg2 harg2 arg3 harg3 arg4 harg4 hc0 hc1 x0 x1 xs)]
  unfold kernelRun2_B
  dsimp only
  rw [View.canon_unit_zero hz2]
  simp only [View.readAt_eq_ld, harg1.read_unread, harg2.read_unread, harg4.read_unread, View.ld_unit_zero (S := S1024x1280) hz2, View.ld_unit_zero (S := S1280x64) hz2, View.ld_unit_zero (S := S1024x64) hz2]

/-- At the last point the accumulator gains the last product, -/
theorem sout2_C_eq (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : ¬cond2_0 i) (hc1 : cond2_1 i)
    (x0 : Vec F S1024x1280 .f32) (x1 : Vec F S1280x64 .f32) (xs : Vec F S1024x64 .f32) :
    sout2_C c i arg1 harg1 arg2 harg2 arg3 harg3 arg4 harg4 hc0 hc1 x0 x1 xs = k2_pay2 x0 x1 xs := by
  unfold sout2_C
  rw [View.read_writes_eq_canon _ _ _ (scover2_C c i arg1 harg1 arg2 harg2 arg3 harg3 arg4 harg4 hc0 hc1 x0 x1 xs)]
  unfold kernelRun2_C
  dsimp only
  sl_unfold_words
  rw [View.canon_unit_zero hz2]
  simp only [View.readAt_eq_ld, harg1.read_unread, harg2.read_unread, harg4.read_unread, View.ld_unit_zero (S := S1024x1280) hz2, View.ld_unit_zero (S := S1280x64) hz2, View.ld_unit_zero (S := S1024x64) hz2]

/-- and the result window's buffer receives a copy of it. -/
theorem out2_C_eq (c : Dev nD) (i : grid2.Coords) (arg1 : Memref sig .tc .vmem S1024x1280 .f32) (harg1 : arg1.IsWhole) (arg2 : Memref sig .tc .vmem S1280x64 .f32) (harg2 : arg2.IsWhole) (arg3 : Memref sig .tc .vmem S1024x64 .f32) (harg3 : arg3.IsWhole) (arg4 : Memref sig .tc .vmem S1024x64 .f32) (harg4 : arg4.IsWhole) (hc0 : ¬cond2_0 i) (hc1 : cond2_1 i)
    (x0 : Vec F S1024x1280 .f32) (x1 : Vec F S1280x64 .f32) (xs : Vec F S1024x64 .f32) :
    out2_C c i arg1 harg1 arg2 harg2 arg3 harg3 arg4 harg4 hc0 hc1 x0 x1 xs = k2_pay2 x0 x1 xs := by
  unfold out2_C
  rw [View.read_writes_eq_canon _ _ _ (cover2_C c i arg1 harg1 arg2 harg2 arg3 harg3 arg4 harg4 hc0 hc1 x0 x1 xs)]
  unfold kernelRun2_C
  dsimp only
  sl_unfold_words
  rw [View.canon_unit_zero hz2, View.readCov_unit_zero (S := S1024x64) _ hz2]
  simp only [View.readAt_eq_ld, harg1.read_unread, harg2.read_unread, harg4.read_unread, View.ld_unit_zero (S := S1024x1280) hz2, View.ld_unit_zero (S := S1280x64) hz2, View.ld_unit_zero (S := S1024x64) hz2]

end Pieces

/-! ## The body's arithmetic at an index, on the extended reals -/

/-- The zero block the first point stores. -/
theorem k2_pay1_apply (p : Fin 1024) (q : Fin 64) : k2_pay1 (F := Ideal) (ix2 p q) = 0 := by
  unfold k2_pay1
  rw [shapeCast_self]
  exact Ideal.ofBits_zero_f32

/-- One point's step: entry (p, q) of the accumulator gains the sum over the block's 1280 contraction coordinates of
    the left block's row p against the right block's column q. On the extended reals the roundings to bf16 are the
    identity, the casts to the same shape are the identity, and the product into a zero accumulator is the plain sum. -/
theorem k2_pay2_apply (x0 : Vec Ideal S1024x1280 .f32) (x1 : Vec Ideal S1280x64 .f32) (xs : Vec Ideal S1024x64 .f32)
    (p : Fin 1024) (q : Fin 64) :
    k2_pay2 (F := Ideal) x0 x1 xs (ix2 p q) = xs (ix2 p q) + ∑ k : Fin 1280, x0 (ix2 p k) * x1 (ix2 k q) := by
  unfold k2_pay2
  simp only [shapeCast_self]
  exact congrArg (fun z => xs (ix2 p q) + z)
    (Cert.Lib.PlainMatmul.plain_matmul_zero_apply (M := 1024) (K := 1280) (N := 64)
      (truncf .bf16 x0 bitsLt_bf16_f32) (truncf .bf16 x1 bitsLt_bf16_f32) p q)

/-! ## Block reads, and the blocks' sums -/

variable (V : (c : Dev nD) → (b : Ref sig .tc) → Buf (Elt Ideal) ((c : Thread nD τ).loc b))

/-- Entry j's left factor at contraction coordinate K: row (j 0), column K of the left operand. -/
abbrev li (j : S1024x64.Idx) (K : Fin 51200) : S1024x51200.Idx := fun a => match a with
  | ⟨0, _⟩ => ⟨(j 0).val, (j 0).isLt⟩
  | ⟨1, _⟩ => ⟨K.val, K.isLt⟩
/-- Entry j's right factor at contraction coordinate K: row K, column (j 1) of the right operand. -/
abbrev ri (j : S1024x64.Idx) (K : Fin 51200) : S51200x64.Idx := fun a => match a with
  | ⟨0, _⟩ => ⟨K.val, K.isLt⟩
  | ⟨1, _⟩ => ⟨(j 1).val, (j 1).isLt⟩

example : Pipeline.arrRef spec2 0 = main_v64 := rfl
example : Pipeline.arrRef spec2 1 = main_v65 := rfl
example : Pipeline.arrRef spec2 2 = main_v66 := rfl

/-- The printed index maps over the grid: at point t the left operand's block is block column t, the right
    operand's is block row t, and the result's block never moves. -/
theorem idx_facts2 : ∀ t : Fin cfg2.N, win2_0.index t (0 : Fin 2) = 0 ∧ win2_0.index t (1 : Fin 2) = t.val
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

/-- The two operand arrays as the region finds them. -/
abbrev opA (c : Dev nD) : Vec Ideal S1024x51200 .f32 := V c main_v64
abbrev opB (c : Dev nD) : Vec Ideal S51200x64 .f32 := V c main_v65

/-- The K-th term of entry j's contraction. -/
abbrev term (c : Dev nD) (j : S1024x64.Idx) (K : Fin 51200) : EReal :=
  opA V c (li j K) * opB V c (ri j K)

/-- The left operand's block at point t, entry (p, k), is the operand at (p, 1280·t + k). -/
theorem iblk2_0_apply (c : Dev nD) (t : Fin cfg2.N) (p : Fin 1024) (q : Fin 64) (k : Fin 1280)
    (hK : t.val * 1280 + k.val < 51200) :
    iblk2 V c 0 t (ix2 p k) = opA V c (li (ix2 p q) ⟨t.val * 1280 + k.val, hK⟩) := by
  obtain ⟨e0, e1, -⟩ := idx_facts2 t
  show V c main_v64 (((cfg2.win 0).blk t).view.emb (ix2 p k)) = _
  refine congrArg (V c main_v64) (funext fun a => Fin.ext ?_)
  match a with
  | ⟨0, _⟩ => show win2_0.index t (0 : Fin 2) * 1024 + 1 * p.val = p.val; rw [e0]; omega
  | ⟨1, _⟩ => show win2_0.index t (1 : Fin 2) * 1280 + 1 * k.val = t.val * 1280 + k.val; rw [e1]; omega

/-- The right operand's block at point t, entry (k, q), is the operand at (1280·t + k, q). -/
theorem iblk2_1_apply (c : Dev nD) (t : Fin cfg2.N) (p : Fin 1024) (q : Fin 64) (k : Fin 1280)
    (hK : t.val * 1280 + k.val < 51200) :
    iblk2 V c 1 t (ix2 k q) = opB V c (ri (ix2 p q) ⟨t.val * 1280 + k.val, hK⟩) := by
  obtain ⟨-, -, e0, e1, -⟩ := idx_facts2 t
  show V c main_v65 (((cfg2.win 1).blk t).view.emb (ix2 k q)) = _
  refine congrArg (V c main_v65) (funext fun a => Fin.ext ?_)
  match a with
  | ⟨0, _⟩ => show win2_1.index t (0 : Fin 2) * 1280 + 1 * k.val = t.val * 1280 + k.val; rw [e0]; omega
  | ⟨1, _⟩ => show win2_1.index t (1 : Fin 2) * 64 + 1 * q.val = q.val; rw [e1]; omega

/-- What block s contributes to entry j: the 1280 terms from coordinate 1280·s on (nothing past the last block). -/
def blockSum (c : Dev nD) (s : ℕ) (j : S1024x64.Idx) : EReal :=
  if h : s < 40 then ∑ k : Fin 1280, term V c j ⟨s * 1280 + k.val, by have := k.isLt; omega⟩ else 0

/-- One point's step on the blocks the region reads there: entry (p, q) gains block t's contribution. -/
theorem step2 (c : Dev nD) (t : Fin cfg2.N) (xs : Vec Ideal S1024x64 .f32) (p : Fin 1024) (q : Fin 64) :
    k2_pay2 (F := Ideal) (iblk2 V c 0 t) (iblk2 V c 1 t) xs (ix2 p q) = xs (ix2 p q) + blockSum V c t.val (ix2 p q) := by
  have ht : t.val < 40 := lt_of_lt_of_eq t.isLt (show cfg2.N = 40 from N_2)
  refine (k2_pay2_apply (iblk2 V c 0 t) (iblk2 V c 1 t) xs p q).trans ?_
  refine congrArg (fun z => xs (ix2 p q) + z) ?_
  unfold blockSum
  rw [dif_pos ht]
  refine Finset.sum_congr rfl fun k _ => ?_
  have hK : t.val * 1280 + k.val < 51200 := by have := k.isLt; omega
  rw [iblk2_0_apply V c t p q k hK, iblk2_1_apply V c t p q k hK]

/-! ## The accumulator, point by point -/

section AnyF
variable {F : FTy → Type} [FloatOps F]
variable (W : (c : Dev nD) → (b : Ref sig .tc) → Buf (Elt F) ((c : Thread nD τ).loc b))

/-- The accumulator after the first point. -/
theorem acc_first (c : Dev nD) (t : Fin cfg2.N) (h0 : t.val % 40 = 0) (h1 : ¬t.val % 40 = 39) :
    (outsAt2 W c t.val t.isLt).2 = k2_pay2 (iblk2 W c 0 t) (iblk2 W c 1 t) k2_pay1 := by
  rw [outsAt2_A W c t h0 h1]
  dsimp only
  exact sout2_A_eq c (grid2.coords t) (ms2_0 t) (hs2_0 t) (ms2_1 t) (hs2_1 t) (ms2_2 t) (hs2_2 t) scM2 (Memref.isWhole_whole _) _ _ (iblk2 W c 0 t) (iblk2 W c 1 t)

/-- The accumulator after a middle point, over what the point before left. -/
theorem acc_middle (c : Dev nD) (t : Fin cfg2.N) (h0 : ¬t.val % 40 = 0) (h1 : ¬t.val % 40 = 39) :
    (outsAt2 W c t.val t.isLt).2 = k2_pay2 (iblk2 W c 0 t) (iblk2 W c 1 t) (outsAt2 W c (t.val - 1) (Nat.lt_of_le_of_lt (Nat.sub_le _ _) t.isLt)).2 := by
  rw [outsAt2_B W c t h0 h1]
  dsimp only
  exact sout2_B_eq c (grid2.coords t) (ms2_0 t) (hs2_0 t) (ms2_1 t) (hs2_1 t) (ms2_2 t) (hs2_2 t) scM2 (Memref.isWhole_whole _) _ _ (iblk2 W c 0 t) (iblk2 W c 1 t) _

/-- The accumulator after the last point, over what the point before left; -/
theorem acc_last (c : Dev nD) (t : Fin cfg2.N) (h0 : ¬t.val % 40 = 0) (h1 : t.val % 40 = 39) :
    (outsAt2 W c t.val t.isLt).2 = k2_pay2 (iblk2 W c 0 t) (iblk2 W c 1 t) (outsAt2 W c (t.val - 1) (Nat.lt_of_le_of_lt (Nat.sub_le _ _) t.isLt)).2 := by
  rw [outsAt2_C W c t h0 h1]
  dsimp only
  exact sout2_C_eq c (grid2.coords t) (ms2_0 t) (hs2_0 t) (ms2_1 t) (hs2_1 t) (ms2_2 t) (hs2_2 t) scM2 (Memref.isWhole_whole _) _ _ (iblk2 W c 0 t) (iblk2 W c 1 t) _

/-- and the result window's buffer there holds the same. -/
theorem out_last (c : Dev nD) (t : Fin cfg2.N) (h0 : ¬t.val % 40 = 0) (h1 : t.val % 40 = 39) :
    (outsAt2 W c t.val t.isLt).1 = (outsAt2 W c t.val t.isLt).2 := by
  rw [outsAt2_C W c t h0 h1]
  dsimp only
  exact (out2_C_eq c (grid2.coords t) (ms2_0 t) (hs2_0 t) (ms2_1 t) (hs2_1 t) (ms2_2 t) (hs2_2 t) scM2 (Memref.isWhole_whole _) _ _ (iblk2 W c 0 t) (iblk2 W c 1 t) _).trans
    (sout2_C_eq c (grid2.coords t) (ms2_0 t) (hs2_0 t) (ms2_1 t) (hs2_1 t) (ms2_2 t) (hs2_2 t) scM2 (Memref.isWhole_whole _) _ _ (iblk2 W c 0 t) (iblk2 W c 1 t) _).symm

end AnyF

/-- THE INVARIANT: after point n the accumulator holds, entry by entry, the contributions of blocks 0 … n. -/
theorem acc_eq (c : Dev nD) : ∀ (n : ℕ) (hn : n < cfg2.N) (p : Fin 1024) (q : Fin 64),
    (outsAt2 V c n hn).2 (ix2 p q) = ∑ s ∈ Finset.range (n + 1), blockSum V c s (ix2 p q)
  | 0, hn, p, q => by
    have h1 : ¬ (⟨0, hn⟩ : Fin cfg2.N).val % 40 = 39 := by show ¬ (0 : ℕ) % 40 = 39; decide
    refine (congrFun (acc_first V c ⟨0, hn⟩ rfl h1) (ix2 p q)).trans ?_
    refine (step2 V c ⟨0, hn⟩ (k2_pay1 (F := Ideal)) p q).trans ?_
    rw [k2_pay1_apply, zero_add, Finset.sum_range_one]
  | n + 1, hn, p, q => by
    have hN : n + 1 < 40 := lt_of_lt_of_eq hn (show cfg2.N = 40 from N_2)
    have h0 : ¬ (⟨n + 1, hn⟩ : Fin cfg2.N).val % 40 = 0 := by dsimp only; omega
    have ih : (outsAt2 V c ((⟨n + 1, hn⟩ : Fin cfg2.N).val - 1) (Nat.lt_of_le_of_lt (Nat.sub_le _ _) hn)).2 (ix2 p q)
        = ∑ s ∈ Finset.range (n + 1), blockSum V c s (ix2 p q) := acc_eq c n (Nat.lt_of_succ_lt hn) p q
    rw [Finset.sum_range_succ _ (n + 1), ← ih]
    by_cases h1 : (⟨n + 1, hn⟩ : Fin cfg2.N).val % 40 = 39
    · refine (congrFun (acc_last V c ⟨n + 1, hn⟩ h0 h1) (ix2 p q)).trans ?_
      exact step2 V c ⟨n + 1, hn⟩ _ p q
    · refine (congrFun (acc_middle V c ⟨n + 1, hn⟩ h0 h1) (ix2 p q)).trans ?_
      exact step2 V c ⟨n + 1, hn⟩ _ p q

/-! ## Forty blocks of 1280 terms are the 51200 terms -/

theorem sum_blocks2 (c : Dev nD) (j : S1024x64.Idx) :
    ∑ s ∈ Finset.range 40, blockSum V c s j = ∑ K : Fin 51200, term V c j K := by
  rw [Cert.BlockSum.sum_blocks_of_eq 40 1280 51200 (by norm_num) (term V c j),
    ← Fin.sum_univ_eq_sum_range (fun s => blockSum V c s j) 40]
  refine Finset.sum_congr rfl fun s _ => ?_
  unfold blockSum
  rw [dif_pos s.isLt]

/-! ## The result array -/

/-- The result: entry j is the whole contraction. -/
abbrev result2 (c : Dev nD) : Vec Ideal S1024x64 .f32 := fun j => ∑ K : Fin 51200, term V c j K

/-- At the last point the result window's buffer holds it. -/
theorem last_eq (c : Dev nD) (t : Fin cfg2.N) (h39 : t.val % 40 = 39) : (outsAt2 V c t.val t.isLt).1 = result2 V c := by
  have hN : t.val < 40 := lt_of_lt_of_eq t.isLt (show cfg2.N = 40 from N_2)
  have ht : t.val + 1 = 40 := by omega
  funext j
  obtain ⟨p, q, rfl⟩ : ∃ (p : Fin 1024) (q : Fin 64), j = ix2 p q := ⟨j 0, j 1, eq_ix2 j⟩
  rw [out_last V c t (by omega) h39, acc_eq V c t.val t.isLt p q, ht, sum_blocks2]

/-- What the one write-back, at the last point, writes: the result, read through the window's block, which is the
    whole array at zero offsets. -/
theorem flushed2_eq (c : Dev nD) (t : Fin cfg2.N) (hf : (cfg2.win 2).flush t = true) :
    (dat2 V c).flushed 2 t = ((cfg2.win 2).blk t).view.read (Elt Ideal) (result2 V c) := by
  have h39 : t.val % 40 = 39 := (flush2_2 t).mp hf
  obtain ⟨-, -, -, -, e0, e1⟩ := idx_facts2 t
  show (cfg2.win 2).cut (grid2.coords t) ((dat2 V c).after 2 t) = _
  rw [after2_2, last_eq V c t h39]
  have hz' : (fun a => win2_2.index t a * main_v66.ty.shape.size a) = fun _ => 0 := funext fun a => by
    match a with
    | ⟨0, _⟩ => show win2_2.index t (0 : Fin 2) * _ = 0; rw [e0, Nat.zero_mul]
    | ⟨1, _⟩ => show win2_2.index t (1 : Fin 2) * _ = 0; rw [e1, Nat.zero_mul]
  exact (Memref.read_access_unit_zero (Elt Ideal) main_v66 hz' (fun a => by rw [congrFun hz' a]; simp) (result2 V c)).symm

/-- THE RESULT ARRAY after the region: every index lies in the one block, written back at the last point. -/
theorem final2 (c : Dev nD) : (dat2 (F := Ideal) V c).arrAt 2 cfg2.N
    = (fun j => ∑ K : Fin 51200, opA V c (li j K) * opB V c (ri j K) : Vec Ideal S1024x64 .f32) :=
  (dat2 V c).arrAt_eq_of_cover 2 (result2 V c) (flushed2_eq V c) fun i => by
    have hlt : 39 < cfg2.N := by rw [show cfg2.N = 40 from N_2]; decide
    obtain ⟨-, -, -, -, e0, e1⟩ := idx_facts2 ⟨39, hlt⟩
    refine ⟨⟨39, hlt⟩, (flush2_2 _).mpr rfl, ?_⟩
    show i ∈ ((View.whole main_v66).slice (win2_2.rect ⟨39, hlt⟩)).set
    rw [View.set_slice_whole, Rect.mem_set_unit]
    intro a
    have h0 : (i 0 : Nat) < 1024 := (i 0).isLt
    have h1 : (i 1 : Nat) < 64 := (i 1).isLt
    match a with
    | ⟨0, _⟩ =>
      show win2_2.index ⟨39, hlt⟩ (0 : Fin 2) * 1024 ≤ (i 0 : Nat) ∧ (i 0 : Nat) < win2_2.index ⟨39, hlt⟩ (0 : Fin 2) * 1024 + 1024
      rw [e0]; omega
    | ⟨1, _⟩ =>
      show win2_2.index ⟨39, hlt⟩ (1 : Fin 2) * 64 ≤ (i 1 : Nat) ∧ (i 1 : Nat) < win2_2.index ⟨39, hlt⟩ (1 : Fin 2) * 64 + 64
      rw [e1]; omega

end Cert.KernelIdeal.Hand

end
-- ==== Proof.KernelIdeal.PadSum.lean ====
/-
  The zero tail of the padded contraction. The last product's left operand is padded with 1200 zero columns and
  its right operand with 1200 zero rows (51200 = 50000 + 1200); the padding value is the integer 0 converted to
  f32, which at the ideal values is the real 0. So every term of the sum over the 51200 contracted positions past
  the 50000-th is 0 · 0 = 0, and the sum is the sum over the 50000 positions of the unpadded operands' products.
-/
import proofs.«112369_j84318797955093_1_alg».proof.Proof.Gen.KernelIdeal.Launch
import proofs.«112369_j84318797955093_1_alg».proof.Proof.Gen.ReferenceIdeal.Read
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx

/-- The padding value, the integer 0 converted to f32, is the real 0 at its one index. -/
theorem zero_pad_value (i : S_.Idx) :
    (sitofp (F := Ideal) .f32 (constantI S_ 32 0#32 : (⟨S_, .i32⟩ : BufTy).Contents (Elt Ideal)) : FVec Ideal S_ .f32) i = 0 := by
  show (((0#32 : BitVec 32).toInt : ℝ) : EReal) = 0
  simp

/-- A sum over n + p terms whose terms from the n-th on vanish is the sum of its first n terms. -/
theorem sum_zero_tail {N : Nat} (n p : Nat) (hN : n + p = N) (f : Fin N → EReal) (g : Fin n → EReal)
    (hlo : ∀ k : Fin n, f ⟨k.val, by omega⟩ = g k) (hhi : ∀ K : Fin N, n ≤ K.val → f K = 0) :
    ∑ K : Fin N, f K = ∑ k : Fin n, g k := by
  subst hN
  rw [Fin.sum_univ_add, Finset.sum_eq_zero (fun i _ => hhi (Fin.natAdd n i) (by simp)), add_zero]
  exact Finset.sum_congr rfl fun k _ => hlo k

/-- The product of the padded operands, summed over the 51200 padded positions, is the product of the unpadded
    operands summed over their 50000 positions: l K and r K are the padded operands' indices at position K of the
    row and the column of the result's entry j. -/
theorem padded_product_sum (D : (⟨S1024x50000, .f32⟩ : BufTy).Contents (Elt Ideal)) (A : (⟨S50000x64, .f32⟩ : BufTy).Contents (Elt Ideal))
    (j : S1024x64.Idx) (l : Fin 51200 → S1024x51200.Idx) (r : Fin 51200 → S51200x64.Idx)
    (hl : ∀ K, ((l K) 0).val = (j 0).val ∧ ((l K) 1).val = K.val) (hr : ∀ K, ((r K) 0).val = K.val ∧ ((r K) 1).val = (j 1).val) :
    ∑ K : Fin 51200, (pad S1024x51200 ![0, 0] ![0, 1200] ![0, 0] D (sitofp (F := Ideal) .f32 (constantI S_ 32 0#32 : (⟨S_, .i32⟩ : BufTy).Contents (Elt Ideal))) pads_S1024x50000_S1024x51200_000_012000 h_S_) (l K)
        * (pad S51200x64 ![0, 0] ![1200, 0] ![0, 0] A (sitofp (F := Ideal) .f32 (constantI S_ 32 0#32 : (⟨S_, .i32⟩ : BufTy).Contents (Elt Ideal))) pads_S50000x64_S51200x64_012000_000 h_S_) (r K)
      = ∑ k : Fin 50000, D (Cert.ReferenceIdeal.Read.lidx_main_v89 j k) * A (Cert.ReferenceIdeal.Read.ridx_main_v89 j k) := by
  refine sum_zero_tail 50000 1200 rfl _ _ (fun k => ?_) (fun K hK => ?_)
  · -- a position inside the operands: both padded operands read the unpadded ones
    have hk : k.val < 50000 := k.isLt
    have eL := pad_apply_of_inside (![0, 0] : Fin 2 → Nat) ![0, 1200] ![0, 0] D
      (sitofp (F := Ideal) .f32 (constantI S_ 32 0#32 : (⟨S_, .i32⟩ : BufTy).Contents (Elt Ideal)))
      pads_S1024x50000_S1024x51200_000_012000 h_S_ (l ⟨k.val, by omega⟩) (Cert.ReferenceIdeal.Read.lidx_main_v89 j k) (fun a => by
        match a with
        | ⟨0, _⟩ => show ((l ⟨k.val, _⟩) 0).val = 0 + (j 0).val * (0 + 1); have := (hl ⟨k.val, by omega⟩).1; omega
        | ⟨1, _⟩ => show ((l ⟨k.val, _⟩) 1).val = 0 + k.val * (0 + 1); have e : ((l ⟨k.val, by omega⟩) 1).val = k.val := (hl ⟨k.val, by omega⟩).2; omega)
    have eR := pad_apply_of_inside (![0, 0] : Fin 2 → Nat) ![1200, 0] ![0, 0] A
      (sitofp (F := Ideal) .f32 (constantI S_ 32 0#32 : (⟨S_, .i32⟩ : BufTy).Contents (Elt Ideal)))
      pads_S50000x64_S51200x64_012000_000 h_S_ (r ⟨k.val, by omega⟩) (Cert.ReferenceIdeal.Read.ridx_main_v89 j k) (fun a => by
        match a with
        | ⟨0, _⟩ => show ((r ⟨k.val, _⟩) 0).val = 0 + k.val * (0 + 1); have e : ((r ⟨k.val, by omega⟩) 0).val = k.val := (hr ⟨k.val, by omega⟩).1; omega
        | ⟨1, _⟩ => show ((r ⟨k.val, _⟩) 1).val = 0 + (j 1).val * (0 + 1); have := (hr ⟨k.val, by omega⟩).2; omega)
    exact congrArg₂ (· * ·) eL eR
  · -- a position in the padding: the left operand reads the padding value, which is 0
    have eL := pad_apply_of_not_inside (![0, 0] : Fin 2 → Nat) ![0, 1200] ![0, 0] D
      (sitofp (F := Ideal) .f32 (constantI S_ 32 0#32 : (⟨S_, .i32⟩ : BufTy).Contents (Elt Ideal)))
      pads_S1024x50000_S1024x51200_000_012000 h_S_ (l K) (1 : Fin 2) (fun hin => by
        have h3 := hin.2.2
        change (((l K) 1).val - 0) / 1 < 50000 at h3
        have := (hl K).2
        omega)
    show (pad S1024x51200 ![0, 0] ![0, 1200] ![0, 0] D (sitofp (F := Ideal) .f32 (constantI S_ 32 0#32 : (⟨S_, .i32⟩ : BufTy).Contents (Elt Ideal))) pads_S1024x50000_S1024x51200_000_012000 h_S_) (l K) * _ = 0
    rw [eL, zero_pad_value, zero_mul]

end Cert.KernelIdeal.Hand

end
-- ==== Proof.KernelIdeal.Bridge.lean ====
/-
  The kernel's result. The last region leaves, entry (i, j), the sum over the padded contracted axis of the
  products of the two padded operands; the padding contributes only zeros; what remains is the sum over the
  50000 nodes of the data entry times the second layer's output entry — the reference's last product, whose right
  factor the two programs compute by the same operations from the same arguments.
-/
import proofs.«112369_j84318797955093_1_alg».proof.Proof.KernelIdeal.Reads
import proofs.«112369_j84318797955093_1_alg».proof.Proof.KernelIdeal.Value2
import proofs.«112369_j84318797955093_1_alg».proof.Proof.KernelIdeal.PadSum

set_option maxRecDepth 16384

noncomputable section

namespace Cert.KernelIdeal.Hand

open Cert.KernelIdeal Cert.KernelIdeal.Gen
open Idealize.ShloMosaic Idealize.ShloMosaic.TcCoe Idealize.SL.Sem
open Cert.ReferenceIdeal.Read (val_main_v88 val_main_v89 val_main_v89_apply)

variable (m : (ℓ : Loc nD τ sig) → Buf (Elt Ideal) ℓ) (ρ : Dev nD → PrngReg)

/-- The result array after the run is the reference's result stage of the launch contents of the arguments. -/
theorem W10_result (c : Dev nD) : W10 m ρ c (Proc.devRef .tc main_v66)
    = val_main_v89 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) := by
  refine (W10_arr m ρ c 2).trans ((final2 (V9 m ρ) c).trans ?_)
  funext j
  rw [val_main_v89_apply]
  show (∑ K : Fin 51200, opA (V9 m ρ) c (li j K) * opB (V9 m ρ) c (ri j K)) = _
  rw [show opA (V9 m ρ) c = _ from W9_padL m ρ c, show opB (V9 m ρ) c = _ from W9_padR m ρ c]
  exact padded_product_sum _ _ j (li j) (ri j) (fun K => ⟨rfl, rfl⟩) (fun K => ⟨rfl, rfl⟩)

/-- THE RUN WITH ITS VALUE: every weakly fair execution of the idealized kernel program terminates, nothing
    faulting, with the result array at the reference's result stage of the arguments and the arguments as launched. -/
theorem run_value : θ_run defs (onTc (τ := τ) (main (F := Ideal))) ⟨m, fun _ => 0, ρ⟩ (fun r => ∀ c : Dev nD,
      r.2.mem ((c.tc : Thread nD τ).loc main_v66) = val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v66 (by decide))).trans (W10_result m ρ c),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c)⟩) (run_all m ρ)

end Cert.KernelIdeal.Hand

end
-- ==== Proof.lean ====
/-
  The certificate of a two-layer graph convolution followed by a dense product, computed by three matrix-product
  kernels with gather / scatter-add aggregation on the host between them, against the plain array program.

  The three matrix products are tiled: the two projections by blocks of 2000 rows, the last product by 40 blocks
  of 1280 along the contracted axis, accumulated in a scratch buffer, its operands padded with zeros from 50000 to
  51200. At the ideal instance a change of float format is the identity and a matrix unit's product into a zero
  accumulator is the plain sum, so each projection's result array is the host's whole product; the accumulated
  blocks regroup into one sum (addition on the extended reals is associative and commutative, no finiteness is
  needed), and the padding contributes only products 0 · 0. The aggregation between the kernels is the same
  sequence of host operations in both programs. Every program runs to the end without a fault and leaves its
  arguments unchanged; the idealization rewrote nothing.
-/
import proofs.«112369_j84318797955093_1_alg».proof.Defs
import proofs.«112369_j84318797955093_1_alg».proof.Proof.Gen.Kernel
import proofs.«112369_j84318797955093_1_alg».proof.Proof.Gen.KernelIdeal
import proofs.«112369_j84318797955093_1_alg».proof.Proof.Gen.ReferenceIdeal
import proofs.«112369_j84318797955093_1_alg».proof.Proof.Gen.Pre_finite_inputs
import proofs.«112369_j84318797955093_1_alg».proof.Proof.Gen.ReferenceIdeal.Read
import proofs.«112369_j84318797955093_1_alg».proof.Proof.Kernel.Run
import proofs.«112369_j84318797955093_1_alg».proof.Proof.KernelIdeal.Bridge

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Hand.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both idealized programs end with the result array at one function of the arguments: the reference's result
    stage, which the kernel's run reaches through its three regions. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v89_eq, (hagree c).1, (hagree c).2.1, (hagree c).2.2.1, (hagree c).2.2.2.1,
    (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
